-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x768 : Shape := ⟨2, ![20000, 768]⟩
abbrev S2x262144 : Shape := ⟨2, ![2, 262144]⟩
abbrev S64 : Shape := ⟨1, ![64]⟩
abbrev S768x768 : Shape := ⟨2, ![768, 768]⟩
abbrev S768 : Shape := ⟨1, ![768]⟩
abbrev S_ : Shape := ⟨0, ![]⟩

class Facts : Prop where
  bcast_S_S20000x768 : S_.BroadcastsInDim S20000x768 (![] : Fin 0 → Fin S20000x768.rank)
  reducesTo_S20000x768_S_d0_1 : S20000x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg6
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S20000x768 .f32) (main_arg1 : IVec S2x262144 32) (main_arg2 : IVec S64 32) (main_arg3 : FVec F S768x768 .f32) (main_arg4 : FVec F S768 .f32) (main_arg5 : FVec F S768x768 .f32) (main_arg6 : FVec F S768 .f32) : IVec S_ 1 :=
  let main_v0 : FVec F S20000x768 .f32 := Host.absf main_arg0
  let main_cst : FVec F S_ .f32 := constant S_ .f32 0x7F800000#32
  let main_v1 : FVec F S20000x768 .f32 := broadcastInDim S20000x768 ![] bcast_S_S20000x768 main_cst
  let main_v2 : IVec S20000x768 1 := cmpf .olt main_v0 main_v1
  let main_c : IVec S_ 1 := constantI S_ 1 1#1
  let main_v3 : IVec S_ 1 := (fun x v => Host.reduce IntOp.andi x v reducesTo_S20000x768_S_d0_1 h_S_) main_v2 main_c
  let main_v4 : FVec F S768x768 .f32 := Host.absf main_arg3
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg5
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg6 main_v13 main_v16
-- ==== Kernel.lean ====
abbrev S20000x768 : Shape := ⟨2, ![20000, 768]⟩
abbrev S2x262144 : Shape := ⟨2, ![2, 262144]⟩
abbrev S64 : Shape := ⟨1, ![64]⟩
abbrev S768x768 : Shape := ⟨2, ![768, 768]⟩
abbrev S768 : Shape := ⟨1, ![768]⟩
abbrev S20000 : Shape := ⟨1, ![20000]⟩
abbrev S1x262144 : Shape := ⟨2, ![1, 262144]⟩
abbrev S262144 : Shape := ⟨1, ![262144]⟩
abbrev S282144 : Shape := ⟨1, ![282144]⟩
abbrev S_ : Shape := ⟨0, ![]⟩
abbrev S282144x1 : Shape := ⟨2, ![282144, 1]⟩
abbrev S20000x1 : Shape := ⟨2, ![20000, 1]⟩
abbrev S1x768 : Shape := ⟨2, ![1, 768]⟩
abbrev S1000x768 : Shape := ⟨2, ![1000, 768]⟩
abbrev S1000x1 : Shape := ⟨2, ![1000, 1]⟩
abbrev S282144x768 : Shape := ⟨2, ![282144, 768]⟩
abbrev S64x1 : Shape := ⟨2, ![64, 1]⟩
abbrev S64x768 : Shape := ⟨2, ![64, 768]⟩

abbrev nBuf : Space → Nat
  | .hbm => 80
  | .vmem => 28
  | .smem => 0
  | _ => 0

abbrev bufTy : (tb : Table) → Fin (tcTables nBuf tb) → BufTy
  | .hbm, ⟨0, _⟩ => ⟨S20000x768, .f32⟩
  | .hbm, ⟨1, _⟩ => ⟨S2x262144, .i32⟩
  | .hbm, ⟨2, _⟩ => ⟨S64, .i32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S20000, .i32⟩
  | .hbm, ⟨8, _⟩ => ⟨S1x262144, .i32⟩
  | .hbm, ⟨9, _⟩ => ⟨S262144, .i32⟩
  | .hbm, ⟨10, _⟩ => ⟨S282144, .i32⟩
  | .hbm, ⟨11, _⟩ => ⟨S1x262144, .i32⟩
  | .hbm, ⟨12, _⟩ => ⟨S262144, .i32⟩
  | .hbm, ⟨13, _⟩ => ⟨S282144, .i32⟩
  | .hbm, ⟨14, _⟩ => ⟨S_, .f32⟩
  | .hbm, ⟨15, _⟩ => ⟨S282144, .f32⟩
  | .hbm, ⟨16, _⟩ => ⟨S_, .f32⟩
  | .hbm, ⟨17, _⟩ => ⟨S20000, .f32⟩
  | .hbm, ⟨18, _⟩ => ⟨S282144x1, .i32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .i1⟩
  | .hbm, ⟨23, _⟩ => ⟨S_, .f32⟩
  | .hbm, ⟨24, _⟩ => ⟨S20000, .f32⟩
  | .hbm, ⟨25, _⟩ => ⟨S20000, .f32⟩
  | .hbm, ⟨26, _⟩ => ⟨S20000, .f32⟩
  | .hbm, ⟨27, _⟩ => ⟨S_, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S768x768, .bf16⟩
  | .hbm, ⟨33, _⟩ => ⟨S768x768, .bf16⟩
  | .hbm, ⟨34, _⟩ => ⟨S1x768, .f32⟩
  | .hbm, ⟨35, _⟩ => ⟨S1x768, .f32⟩
  | .hbm, ⟨36, _⟩ => ⟨S20000x768, .f32⟩
  | .hbm, ⟨37, _⟩ => ⟨S_, .i32⟩
  | .hbm, ⟨38, _⟩ => ⟨S282144, .i32⟩
  | .hbm, ⟨39, _⟩ => ⟨S282144, .i1⟩
  | .hbm, ⟨40, _⟩ => ⟨S_, .i32⟩
  | .hbm, ⟨41, _⟩ => ⟨S282144, .i32⟩
  | .hbm, ⟨42, _⟩ => ⟨S282144, .i32⟩
  | .hbm, ⟨43, _⟩ => ⟨S282144, .i32⟩
  | .hbm, ⟨44, _⟩ => ⟨S282144x1, .i32⟩
  | .hbm, ⟨45, _⟩ => ⟨S282144x768, .f32⟩
  | .hbm, ⟨46, _⟩ => ⟨S_, .f32⟩
  | .hbm, ⟨47, _⟩ => ⟨S20000x768, .f32⟩
  | .hbm, ⟨48, _⟩ => ⟨S282144x1, .i32⟩
  | .hbm, ⟨49, _⟩ => ⟨S20000x768, .f32⟩
  | .hbm, ⟨50, _⟩ => ⟨S20000x768, .f32⟩
  | .hbm, ⟨51, _⟩ => ⟨S20000x768, .f32⟩
  | .hbm, ⟨52, _⟩ => ⟨S_, .i32⟩
  | .hbm, ⟨53, _⟩ => ⟨S282144, .i32⟩
  | .hbm, ⟨54, _⟩ => ⟨S282144, .i1⟩
  | .hbm, ⟨55, _⟩ => ⟨S_, .i32⟩
  | .hbm, ⟨56, _⟩ => ⟨S282144, .i32⟩
  | .hbm, ⟨57, _⟩ => ⟨S282144, .i32⟩
  | .hbm, ⟨58, _⟩ => ⟨S282144, .i32⟩
  | .hbm, ⟨59, _⟩ => ⟨S282144x1, .i32⟩
  | .hbm, ⟨60, _⟩ => ⟨S282144x768, .f32⟩
  | .hbm, ⟨61, _⟩ => ⟨S_, .f32⟩
  | .hbm, ⟨62, _⟩ => ⟨S20000x768, .f32⟩
  | .hbm, ⟨63, _⟩ => ⟨S282144x1, .i32⟩
  | .hbm, ⟨64, _⟩ => ⟨S20000x768, .f32⟩
  | .hbm, ⟨65, _⟩ => ⟨S20000x768, .f32⟩
  | .hbm, ⟨66, _⟩ => ⟨S_, .i32⟩
  | .hbm, ⟨67, _⟩ => ⟨S64, .i32⟩
  | .hbm, ⟨68, _⟩ => ⟨S64, .i1⟩
  | .hbm, ⟨69, _⟩ => ⟨S_, .i32⟩
  | .hbm, ⟨70, _⟩ => ⟨S64, .i32⟩
  | .hbm, ⟨71, _⟩ => ⟨S64, .i32⟩
  | .hbm, ⟨72, _⟩ => ⟨S64, .i32⟩
  | .hbm, ⟨73, _⟩ => ⟨S64x1, .i32⟩
  | .hbm, ⟨74, _⟩ => ⟨S64x768, .f32⟩
  | .hbm, ⟨75, _⟩ => ⟨S_, .f32⟩
  | .hbm, ⟨76, _⟩ => ⟨S768, .f32⟩
  | .hbm, ⟨77, _⟩ => ⟨S_, .f32⟩
  | .hbm, ⟨78, _⟩ => ⟨S768, .f32⟩
  | .hbm, ⟨79, _⟩ => ⟨S768, .f32⟩
  | .local _ .vmem, ⟨0, _⟩ => ⟨S1000x768, .f32⟩
  | .local _ .vmem, ⟨1, _⟩ => ⟨S1000x768, .f32⟩
  | .local _ .vmem, ⟨2, _⟩ => ⟨S1000x1, .f32⟩
  | .local _ .vmem, ⟨3, _⟩ => ⟨S1000x1, .f32⟩
  | .local _ .vmem, ⟨4, _⟩ => ⟨S768x768, .bf16⟩
  | .local _ .vmem, ⟨5, _⟩ => ⟨S1000x768, .f32⟩
  | .local _ .vmem, ⟨6, _⟩ => ⟨S1000x768, .f32⟩
  | .local _ .vmem, ⟨7, _⟩ => ⟨S1000x768, .f32⟩
  | .local _ .vmem, ⟨8, _⟩ => ⟨S1000x768, .f32⟩
  | .local _ .vmem, ⟨9, _⟩ => ⟨S1000x1, .f32⟩
  | .local _ .vmem, ⟨10, _⟩ => ⟨S1000x1, .f32⟩
  | .local _ .vmem, ⟨11, _⟩ => ⟨S1x768, .f32⟩
  | .local _ .vmem, ⟨12, _⟩ => ⟨S1000x768, .f32⟩
  | .local _ .vmem, ⟨13, _⟩ => ⟨S1000x768, .f32⟩
  | .local _ .vmem, ⟨14, _⟩ => ⟨S1000x768, .f32⟩
  | .local _ .vmem, ⟨15, _⟩ => ⟨S1000x768, .f32⟩
  | .local _ .vmem, ⟨16, _⟩ => ⟨S1000x1, .f32⟩
  | .local _ .vmem, ⟨17, _⟩ => ⟨S1000x1, .f32⟩
  | .local _ .vmem, ⟨18, _⟩ => ⟨S768x768, .bf16⟩
  | .local _ .vmem, ⟨19, _⟩ => ⟨S1000x768, .f32⟩
  | .local _ .vmem, ⟨20, _⟩ => ⟨S1000x768, .f32⟩
  | .local _ .vmem, ⟨21, _⟩ => ⟨S1000x768, .f32⟩
  | .local _ .vmem, ⟨22, _⟩ => ⟨S1000x768, .f32⟩
  | .local _ .vmem, ⟨23, _⟩ => ⟨S1000x1, .f32⟩
  | .local _ .vmem, ⟨24, _⟩ => ⟨S1000x1, .f32⟩
  | .local _ .vmem, ⟨25, _⟩ => ⟨S1x768, .f32⟩
  | .local _ .vmem, ⟨26, _⟩ => ⟨S1000x768, .f32⟩
  | .local _ .vmem, ⟨27, _⟩ => ⟨S1000x768, .f32⟩
  | _, _ => ⟨S20000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x262144_S1x262144_0_0 : S2x262144.Slices ![0, 0] S1x262144
  shapeCasts_S1x262144_S262144 : S1x262144.ShapeCasts S262144
  concatenates_S262144_S20000_S282144_d0 : Shape.Concatenates [S262144, S20000] S282144 0
  slices_S2x262144_S1x262144_1_0 : S2x262144.Slices ![1, 0] S1x262144
  bcast_S_S282144 : S_.BroadcastsInDim S282144 (![] : Fin 0 → Fin S282144.rank)
  bcast_S_S20000 : S_.BroadcastsInDim S20000 (![] : Fin 0 → Fin S20000.rank)
  bcast_S282144_S282144x1_0 : S282144.BroadcastsInDim S282144x1 (![0] : Fin 1 → Fin S282144x1.rank)
  bcast_S20000_S20000x1_0 : S20000.BroadcastsInDim S20000x1 (![0] : Fin 1 → Fin S20000x1.rank)
  bitsLt_bf16_f32 : FTy.bits .bf16 < FTy.bits .f32
  bcast_S768_S1x768_1 : S768.BroadcastsInDim S1x768 (![1] : Fin 1 → Fin S1x768.rank)
  inb_S1000x768_S1000x768_0_0 : ∀ a, (![0, 0] : Fin 2 → Nat) a + S1000x768.size a ≤ S1000x768.size a
  h_S1000x768 : 0 < S1000x768.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x768 : S1000x1.Broadcasts S1000x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  bcast_S_S20000x768 : S_.BroadcastsInDim S20000x768 (![] : Fin 0 → Fin S20000x768.rank)
  shapeCasts_S1000x768_S1000x768 : S1000x768.ShapeCasts S1000x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  bcast_S_S64 : S_.BroadcastsInDim S64 (![] : Fin 0 → Fin S64.rank)
  bcast_S64_S64x1_0 : S64.BroadcastsInDim S64x1 (![0] : Fin 1 → Fin S64x1.rank)
  reducesTo_S64x768_S768_d0 : S64x768.ReducesTo [0] S768
  h_S_ : 0 < S_.numel
  bcast_S_S768 : S_.BroadcastsInDim S768 (![] : Fin 0 → Fin S768.rank)
  scatter_S20000_S282144x1_S282144_n_0_0_1_wf : ScatterDims.WF S20000 S282144x1 S282144 [] [0] [0] 1
  dot_S1000x768_S768x768_S1000x768_1_0_0_1_n_n_wf : DotDims.WF S1000x768 S768x768 S1000x768 [1] [0] [0] [1] [] []
  gather_S20000x768_S282144x1_S282144x768_1_0_n_n_0_1_1768_wf : GatherDims.WF S20000x768 S282144x1 S282144x768 [1] [0] [] [0] [] 1 ![1, 768]
  scatter_S20000x768_S282144x1_S282144x768_1_0_0_1_wf : ScatterDims.WF S20000x768 S282144x1 S282144x768 [1] [0] [0] 1
  gather_S20000x768_S64x1_S64x768_1_0_n_n_0_1_1768_wf : GatherDims.WF S20000x768 S64x1 S64x768 [1] [0] [] [0] [] 1 ![1, 768]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S20000x768.size a
  hwx0_0 : ∀ i : grid0.Coords, EltTy.bits .f32 = 32 ∨ (Rect.block (s := S20000x768) S1000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S20000x1.size a
  hwx0_1 : ∀ i : grid0.Coords, EltTy.bits .f32 = 32 ∨ (Rect.block (s := S20000x1) S1000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x768.size a ≤ S20000x768.size a
  hwx0_3 : ∀ i : grid0.Coords, EltTy.bits .f32 = 32 ∨ (Rect.block (s := S20000x768) S1000x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x768.size a ≤ S20000x768.size a
  hwx1_0 : ∀ i : grid1.Coords, EltTy.bits .f32 = 32 ∨ (Rect.block (s := S20000x768) S1000x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S20000x1.size a
  hwx1_1 : ∀ i : grid1.Coords, EltTy.bits .f32 = 32 ∨ (Rect.block (s := S20000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x768.size a ≤ S20000x768.size a
  hwx1_3 : ∀ i : grid1.Coords, EltTy.bits .f32 = 32 ∨ (Rect.block (s := S20000x768) S1000x768.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x768.size a ≤ S20000x768.size a
  hwx2_0 : ∀ i : grid2.Coords, EltTy.bits .f32 = 32 ∨ (Rect.block (s := S20000x768) S1000x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S20000x1.size a
  hwx2_1 : ∀ i : grid2.Coords, EltTy.bits .f32 = 32 ∨ (Rect.block (s := S20000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x768.size a ≤ S768x768.size a
  hwx2_2 : ∀ i : grid2.Coords, EltTy.bits .bf16 = 32 ∨ (Rect.block (s := S768x768) S768x768.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x768.size a ≤ S20000x768.size a
  hwx2_3 : ∀ i : grid2.Coords, EltTy.bits .f32 = 32 ∨ (Rect.block (s := S20000x768) S1000x768.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x768.size a ≤ S20000x768.size a
  hwx3_0 : ∀ i : grid3.Coords, EltTy.bits .f32 = 32 ∨ (Rect.block (s := S20000x768) S1000x768.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S20000x1.size a
  hwx3_1 : ∀ i : grid3.Coords, EltTy.bits .f32 = 32 ∨ (Rect.block (s := S20000x1) S1000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x768.size a ≤ S1x768.size a
  hwx3_2 : ∀ i : grid3.Coords, EltTy.bits .f32 = 32 ∨ (Rect.block (s := S1x768) S1x768.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x768.size a ≤ S20000x768.size a
  hwx3_3 : ∀ i : grid3.Coords, EltTy.bits .f32 = 32 ∨ (Rect.block (s := S20000x768) S1000x768.size (cc3_transform_3 i) (hinb3_3 i)).WholeWords (EltTy.packing .f32)

variable [Facts₀]

def scatter_S20000_S282144x1_S282144_n_0_0_1 : ScatterDims S20000 S282144x1 S282144 where
  updateWindowDims := []
  insertedWindowDims := [0]
  scatterDimsToOperandDims := [0]
  indexVectorDim := 1
  wf := scatter_S20000_S282144x1_S282144_n_0_0_1_wf
def dot_S1000x768_S768x768_S1000x768_1_0_0_1_n_n : DotDims S1000x768 S768x768 S1000x768 where
  lhsContracting := [1]
  rhsContracting := [0]
  lhsNonContracting := [0]
  rhsNonContracting := [1]
  lhsBatch := []
  rhsBatch := []
  wf := dot_S1000x768_S768x768_S1000x768_1_0_0_1_n_n_wf
def gather_S20000x768_S282144x1_S282144x768_1_0_n_n_0_1_1768 : GatherDims S20000x768 S282144x1 S282144x768 where
  offsetDims := [1]
  collapsedSliceDims := [0]
  operandBatchingDims := []
  startIndicesBatchingDims := []
  startIndexMap := [0]
  indexVectorDim := 1
  sliceSizes := ![1, 768]
  wf := gather_S20000x768_S282144x1_S282144x768_1_0_n_n_0_1_1768_wf
def scatter_S20000x768_S282144x1_S282144x768_1_0_0_1 : ScatterDims S20000x768 S282144x1 S282144x768 where
  updateWindowDims := [1]
  insertedWindowDims := [0]
  scatterDimsToOperandDims := [0]
  indexVectorDim := 1
  wf := scatter_S20000x768_S282144x1_S282144x768_1_0_0_1_wf
def gather_S20000x768_S64x1_S64x768_1_0_n_n_0_1_1768 : GatherDims S20000x768 S64x1 S64x768 where
  offsetDims := [1]
  collapsedSliceDims := [0]
  operandBatchingDims := []
  startIndicesBatchingDims := []
  startIndexMap := [0]
  indexVectorDim := 1
  sliceSizes := ![1, 768]
  wf := gather_S20000x768_S64x1_S64x768_1_0_n_n_0_1_1768_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1000x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S1000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1000x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S1000x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S768x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1000x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v44) S1000x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1000x768.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x768 : Shape := ⟨2, ![20000, 768]⟩
abbrev S2x262144 : Shape := ⟨2, ![2, 262144]⟩
abbrev S64 : Shape := ⟨1, ![64]⟩
abbrev S768x768 : Shape := ⟨2, ![768, 768]⟩
abbrev S768 : Shape := ⟨1, ![768]⟩
abbrev S20000 : Shape := ⟨1, ![20000]⟩
abbrev S1x262144 : Shape := ⟨2, ![1, 262144]⟩
abbrev S262144 : Shape := ⟨1, ![262144]⟩
abbrev S282144 : Shape := ⟨1, ![282144]⟩
abbrev S_ : Shape := ⟨0, ![]⟩
abbrev S282144x1 : Shape := ⟨2, ![282144, 1]⟩
abbrev S282144x768 : Shape := ⟨2, ![282144, 768]⟩
abbrev S1x768 : Shape := ⟨2, ![1, 768]⟩
abbrev S64x1 : Shape := ⟨2, ![64, 1]⟩
abbrev S64x768 : Shape := ⟨2, ![64, 768]⟩

abbrev nBuf : Space → Nat
  | .hbm => 142
  | .vmem => 0
  | .smem => 0
  | _ => 0

abbrev hbmTy0_0 (i : Nat) : BufTy := match i % 128 with
  | 0 => ⟨S20000x768, .f32⟩
  | 1 => ⟨S2x262144, .i32⟩
  | 2 => ⟨S64, .i32⟩
  | 3 => ⟨S768x768, .f32⟩
  | 4 => ⟨S768, .f32⟩
  | 5 => ⟨S768x768, .f32⟩
  | 6 => ⟨S768, .f32⟩
  | 7 => ⟨S20000, .i32⟩
  | 8 => ⟨S1x262144, .i32⟩
  | 9 => ⟨S262144, .i32⟩
  | 10 => ⟨S282144, .i32⟩
  | 11 => ⟨S1x262144, .i32⟩
  | 12 => ⟨S262144, .i32⟩
  | 13 => ⟨S282144, .i32⟩
  | 14 => ⟨S_, .f32⟩
  | 15 => ⟨S282144, .f32⟩
  | 16 => ⟨S_, .f32⟩
  | 17 => ⟨S20000, .f32⟩
  | 18 => ⟨S282144x1, .i32⟩
  | 19 => ⟨S20000, .f32⟩
  | 20 => ⟨S_, .f32⟩
  | 21 => ⟨S20000, .f32⟩
  | 22 => ⟨S20000, .i1⟩
  | 23 => ⟨S_, .f32⟩
  | 24 => ⟨S20000, .f32⟩
  | 25 => ⟨S20000, .f32⟩
  | 26 => ⟨S20000, .f32⟩
  | 27 => ⟨S_, .f32⟩
  | 28 => ⟨S_, .f32⟩
  | 29 => ⟨S20000, .f32⟩
  | 30 => ⟨S20000, .f32⟩
  | 31 => ⟨S_, .i32⟩
  | 32 => ⟨S282144, .i32⟩
  | 33 => ⟨S282144, .i1⟩
  | 34 => ⟨S_, .i32⟩
  | 35 => ⟨S282144, .i32⟩
  | 36 => ⟨S282144, .i32⟩
  | 37 => ⟨S282144, .i32⟩
  | 38 => ⟨S282144x1, .i32⟩
  | 39 => ⟨S282144, .f32⟩
  | 40 => ⟨S_, .i32⟩
  | 41 => ⟨S282144, .i32⟩
  | 42 => ⟨S282144, .i1⟩
  | 43 => ⟨S_, .i32⟩
  | 44 => ⟨S282144, .i32⟩
  | 45 => ⟨S282144, .i32⟩
  | 46 => ⟨S282144, .i32⟩
  | 47 => ⟨S282144x1, .i32⟩
  | 48 => ⟨S282144, .f32⟩
  | 49 => ⟨S282144, .f32⟩
  | 50 => ⟨S20000x768, .f32⟩
  | 51 => ⟨S_, .i32⟩
  | 52 => ⟨S282144, .i32⟩
  | 53 => ⟨S282144, .i1⟩
  | 54 => ⟨S_, .i32⟩
  | 55 => ⟨S282144, .i32⟩
  | 56 => ⟨S282144, .i32⟩
  | 57 => ⟨S282144, .i32⟩
  | 58 => ⟨S282144x1, .i32⟩
  | 59 => ⟨S282144x768, .f32⟩
  | 60 => ⟨S282144x1, .f32⟩
  | 61 => ⟨S282144x768, .f32⟩
  | 62 => ⟨S282144x768, .f32⟩
  | 63 => ⟨S_, .f32⟩
  | 64 => ⟨S20000x768, .f32⟩
  | 65 => ⟨S282144x1, .i32⟩
  | 66 => ⟨S20000x768, .f32⟩
  | 67 => ⟨S1x768, .f32⟩
  | 68 => ⟨S20000x768, .f32⟩
  | 69 => ⟨S20000x768, .f32⟩
  | 70 => ⟨S20000x768, .f32⟩
  | 71 => ⟨S_, .f32⟩
  | 72 => ⟨S282144, .f32⟩
  | 73 => ⟨S_, .f32⟩
  | 74 => ⟨S20000, .f32⟩
  | 75 => ⟨S282144x1, .i32⟩
  | 76 => ⟨S20000, .f32⟩
  | 77 => ⟨S_, .f32⟩
  | 78 => ⟨S20000, .f32⟩
  | 79 => ⟨S20000, .i1⟩
  | 80 => ⟨S_, .f32⟩
  | 81 => ⟨S20000, .f32⟩
  | 82 => ⟨S20000, .f32⟩
  | 83 => ⟨S20000, .f32⟩
  | 84 => ⟨S_, .f32⟩
  | 85 => ⟨S_, .f32⟩
  | 86 => ⟨S20000, .f32⟩
  | 87 => ⟨S20000, .f32⟩
  | 88 => ⟨S_, .i32⟩
  | 89 => ⟨S282144, .i32⟩
  | 90 => ⟨S282144, .i1⟩
  | 91 => ⟨S_, .i32⟩
  | 92 => ⟨S282144, .i32⟩
  | 93 => ⟨S282144, .i32⟩
  | 94 => ⟨S282144, .i32⟩
  | 95 => ⟨S282144x1, .i32⟩
  | 96 => ⟨S282144, .f32⟩
  | 97 => ⟨S_, .i32⟩
  | 98 => ⟨S282144, .i32⟩
  | 99 => ⟨S282144, .i1⟩
  | 100 => ⟨S_, .i32⟩
  | 101 => ⟨S282144, .i32⟩
  | 102 => ⟨S282144, .i32⟩
  | 103 => ⟨S282144, .i32⟩
  | 104 => ⟨S282144x1, .i32⟩
  | 105 => ⟨S282144, .f32⟩
  | 106 => ⟨S282144, .f32⟩
  | 107 => ⟨S20000x768, .f32⟩
  | 108 => ⟨S_, .i32⟩
  | 109 => ⟨S282144, .i32⟩
  | 110 => ⟨S282144, .i1⟩
  | 111 => ⟨S_, .i32⟩
  | 112 => ⟨S282144, .i32⟩
  | 113 => ⟨S282144, .i32⟩
  | 114 => ⟨S282144, .i32⟩
  | 115 => ⟨S282144x1, .i32⟩
  | 116 => ⟨S282144x768, .f32⟩
  | 117 => ⟨S282144x1, .f32⟩
  | 118 => ⟨S282144x768, .f32⟩
  | 119 => ⟨S282144x768, .f32⟩
  | 120 => ⟨S_, .f32⟩
  | 121 => ⟨S20000x768, .f32⟩
  | 122 => ⟨S282144x1, .i32⟩
  | 123 => ⟨S20000x768, .f32⟩
  | 124 => ⟨S1x768, .f32⟩
  | 125 => ⟨S20000x768, .f32⟩
  | 126 => ⟨S20000x768, .f32⟩
  | 127 => ⟨S20000x768, .f32⟩
  | _ => ⟨S20000x768, .f32⟩

abbrev hbmTy0_1 (i : Nat) : BufTy := match i % 128 with
  | 0 => ⟨S_, .i32⟩
  | 1 => ⟨S64, .i32⟩
  | 2 => ⟨S64, .i1⟩
  | 3 => ⟨S_, .i32⟩
  | 4 => ⟨S64, .i32⟩
  | 5 => ⟨S64, .i32⟩
  | 6 => ⟨S64, .i32⟩
  | 7 => ⟨S64x1, .i32⟩
  | 8 => ⟨S64x768, .f32⟩
  | 9 => ⟨S_, .f32⟩
  | 10 => ⟨S768, .f32⟩
  | 11 => ⟨S_, .f32⟩
  | 12 => ⟨S768, .f32⟩
  | 13 => ⟨S768, .f32⟩
  | _ => ⟨S20000x768, .f32⟩

abbrev hbmTy (i : Nat) : BufTy := match i / 128 with
  | 0 => hbmTy0_0 i
  | 1 => hbmTy0_1 i
  | _ => ⟨S20000x768, .f32⟩

abbrev bufTy : (tb : Table) → Fin (tcTables nBuf tb) → BufTy
  | .hbm, ⟨i, _⟩ => hbmTy i
  | _, _ => ⟨S20000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_call1_v0 : Ref sig .tc := ⟨.hbm, 85, rfl⟩
abbrev main_call1_v1 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_17 : Ref sig .tc := ⟨.hbm, 97, rfl⟩
abbrev main_v67 : Ref sig .tc := ⟨.hbm, 98, rfl⟩
abbrev main_v68 : Ref sig .tc := ⟨.hbm, 99, rfl⟩
abbrev main_c_18 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_19 : Ref sig .tc := ⟨.hbm, 108, rfl⟩
abbrev main_v76 : Ref sig .tc := ⟨.hbm, 109, rfl⟩
abbrev main_v77 : Ref sig .tc := ⟨.hbm, 110, rfl⟩
abbrev main_c_20 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_21 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_22 : Ref sig .tc := ⟨.hbm, 128, rfl⟩
abbrev main_v93 : Ref sig .tc := ⟨.hbm, 129, rfl⟩
abbrev main_v94 : Ref sig .tc := ⟨.hbm, 130, rfl⟩
abbrev main_c_23 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_24 : Ref sig .tc := ⟨.hbm, 137, rfl⟩
abbrev main_v100 : Ref sig .tc := ⟨.hbm, 138, rfl⟩
abbrev main_cst_25 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S20000_S282144_d0 : Shape.Concatenates [S262144, S20000] S282144 0
  slices_S2x262144_S1x262144_1_0 : S2x262144.Slices ![1, 0] S1x262144
  bcast_S_S282144 : S_.BroadcastsInDim S282144 (![] : Fin 0 → Fin S282144.rank)
  bcast_S_S20000 : S_.BroadcastsInDim S20000 (![] : Fin 0 → Fin S20000.rank)
  bcast_S282144_S282144x1_0 : S282144.BroadcastsInDim S282144x1 (![0] : Fin 1 → Fin S282144x1.rank)
  bcast_S282144x1_S282144x768_0_1 : S282144x1.BroadcastsInDim S282144x768 (![0, 1] : Fin 2 → Fin S282144x768.rank)
  bcast_S_S20000x768 : S_.BroadcastsInDim S20000x768 (![] : Fin 0 → Fin S20000x768.rank)
  bcast_S768_S1x768_1 : S768.BroadcastsInDim S1x768 (![1] : Fin 1 → Fin S1x768.rank)
  bcast_S1x768_S20000x768_0_1 : S1x768.BroadcastsInDim S20000x768 (![0, 1] : Fin 2 → Fin S20000x768.rank)
  bcast_S_S64 : S_.BroadcastsInDim S64 (![] : Fin 0 → Fin S64.rank)
  bcast_S64_S64x1_0 : S64.BroadcastsInDim S64x1 (![0] : Fin 1 → Fin S64x1.rank)
  reducesTo_S64x768_S768_d0 : S64x768.ReducesTo [0] S768
  h_S_ : 0 < S_.numel
  bcast_S_S768 : S_.BroadcastsInDim S768 (![] : Fin 0 → Fin S768.rank)
  scatter_S20000_S282144x1_S282144_n_0_0_1_wf : ScatterDims.WF S20000 S282144x1 S282144 [] [0] [0] 1
  gather_S20000_S282144x1_S282144_n_0_n_n_0_1_1_wf : GatherDims.WF S20000 S282144x1 S282144 [] [0] [] [0] [] 1 ![1]
  dot_S20000x768_S768x768_S20000x768_1_0_0_1_n_n_wf : DotDims.WF S20000x768 S768x768 S20000x768 [1] [0] [0] [1] [] []
  gather_S20000x768_S282144x1_S282144x768_1_0_n_n_0_1_1768_wf : GatherDims.WF S20000x768 S282144x1 S282144x768 [1] [0] [] [0] [] 1 ![1, 768]
  scatter_S20000x768_S282144x1_S282144x768_1_0_0_1_wf : ScatterDims.WF S20000x768 S282144x1 S282144x768 [1] [0] [0] 1
  gather_S20000x768_S64x1_S64x768_1_0_n_n_0_1_1768_wf : GatherDims.WF S20000x768 S64x1 S64x768 [1] [0] [] [0] [] 1 ![1, 768]

variable [Facts₀]

def scatter_S20000_S282144x1_S282144_n_0_0_1 : ScatterDims S20000 S282144x1 S282144 where
  updateWindowDims := []
  insertedWindowDims := [0]
  scatterDimsToOperandDims := [0]
  indexVectorDim := 1
  wf := scatter_S20000_S282144x1_S282144_n_0_0_1_wf
def gather_S20000_S282144x1_S282144_n_0_n_n_0_1_1 : GatherDims S20000 S282144x1 S282144 where
  offsetDims := []
  collapsedSliceDims := [0]
  operandBatchingDims := []
  startIndicesBatchingDims := []
  startIndexMap := [0]
  indexVectorDim := 1
  sliceSizes := ![1]
  wf := gather_S20000_S282144x1_S282144_n_0_n_n_0_1_1_wf
def dot_S20000x768_S768x768_S20000x768_1_0_0_1_n_n : DotDims S20000x768 S768x768 S20000x768 where
  lhsContracting := [1]
  rhsContracting := [0]
  lhsNonContracting := [0]
  rhsNonContracting := [1]
  lhsBatch := []
  rhsBatch := []
  wf := dot_S20000x768_S768x768_S20000x768_1_0_0_1_n_n_wf
def gather_S20000x768_S282144x1_S282144x768_1_0_n_n_0_1_1768 : GatherDims S20000x768 S282144x1 S282144x768 where
  offsetDims := [1]
  collapsedSliceDims := [0]
  operandBatchingDims := []
  startIndicesBatchingDims := []
  startIndexMap := [0]
  indexVectorDim := 1
  sliceSizes := ![1, 768]
  wf := gather_S20000x768_S282144x1_S282144x768_1_0_n_n_0_1_1768_wf
def scatter_S20000x768_S282144x1_S282144x768_1_0_0_1 : ScatterDims S20000x768 S282144x1 S282144x768 where
  updateWindowDims := [1]
  insertedWindowDims := [0]
  scatterDimsToOperandDims := [0]
  indexVectorDim := 1
  wf := scatter_S20000x768_S282144x1_S282144x768_1_0_0_1_wf
def gather_S20000x768_S64x1_S64x768_1_0_n_n_0_1_1768 : GatherDims S20000x768 S64x1 S64x768 where
  offsetDims := [1]
  collapsedSliceDims := [0]
  operandBatchingDims := []
  startIndicesBatchingDims := []
  startIndexMap := [0]
  indexVectorDim := 1
  sliceSizes := ![1, 768]
  wf := gather_S20000x768_S64x1_S64x768_1_0_n_n_0_1_1768_wf

class Facts : Prop extends Facts₀ where

variable [Facts]
-- ==== Proof.KernelRun.lean ====
/-
  The kernel program's run, with its result named.

  The program is four kernel launches among stretches of host operations. Its run passes through ten boundaries; the
  buffer contents at each are a fold from the launch memory: a stretch of host operations rewrites the buffers its
  operations write, a launch leaves each of its arrays at what its write-backs leave and every other buffer as it
  was. Every weakly fair execution terminates without a fault in a state whose buffers hold the last boundary's
  contents; read at the result's buffer that is the result, and read at an argument's buffer it is the argument as
  launched.
-/
import proofs.«124303_j39805756900005_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result's buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v55) = W10 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v55 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Run

end
-- ==== Proof.RegionSpec.lean ====
/-
  The two whole-array functions the kernel's launches compute, index by index, at the exact values.

  Rows-scaled dense product: entry (n, c) is Σ_k (X (n, k) · d (n, 0)) · W (k, c) — row n of X scaled by the column
  d's entry for that row, then multiplied into column c of W. Only row n of X and of d enter, so a block of rows of
  the result is the same function of the same block of rows of X and d.

  Scaled, biased hyperbolic tangent: entry (n, c) is tanh (A (n, c) · d (n, 0) + b (0, c)).
-/
import Idealize.ShloMosaic.Lib.ValueIdx
import Idealize.ShloMosaic.PureOps.Ideal

noncomputable section

namespace Cert.GcnSpec

open Idealize.ShloMosaic Idealize.ShloMosaic.ValueIdx

/-- A rank-2 index's row, as a number below the first extent. -/
abbrev row {a b : ℕ} (i : (⟨2, ![a, b]⟩ : Shape).Idx) : Fin a := ⟨(i 0).val, idx2_lt0 i⟩
/-- A rank-2 index's column, as a number below the second extent. -/
abbrev col {a b : ℕ} (i : (⟨2, ![a, b]⟩ : Shape).Idx) : Fin b := ⟨(i 1).val, idx2_lt1 i⟩

/-- Rows scaled by a column, then a dense product. -/
def scaledDense {N A B : ℕ} (X : (⟨2, ![N, A]⟩ : Shape).Idx → EReal) (d : (⟨2, ![N, 1]⟩ : Shape).Idx → EReal)
    (W : (⟨2, ![A, B]⟩ : Shape).Idx → EReal) : (⟨2, ![N, B]⟩ : Shape).Idx → EReal :=
  fun i => ∑ k : Fin A, (X (ix2 (row i) k) * d (ix2 (row i) (0 : Fin 1))) * W (ix2 k (col i))

theorem scaledDense_apply {N A B : ℕ} (X : (⟨2, ![N, A]⟩ : Shape).Idx → EReal) (d : (⟨2, ![N, 1]⟩ : Shape).Idx → EReal)
    (W : (⟨2, ![A, B]⟩ : Shape).Idx → EReal) (n : Fin N) (c : Fin B) :
    scaledDense X d W (ix2 n c) = ∑ k : Fin A, (X (ix2 n k) * d (ix2 n (0 : Fin 1))) * W (ix2 k c) := rfl

/-- Entries scaled by a column, a row added, the hyperbolic tangent taken. -/
def biasedTanh {N B : ℕ} (X : (⟨2, ![N, B]⟩ : Shape).Idx → EReal) (d : (⟨2, ![N, 1]⟩ : Shape).Idx → EReal)
    (b : (⟨2, ![1, B]⟩ : Shape).Idx → EReal) : (⟨2, ![N, B]⟩ : Shape).Idx → EReal :=
  fun i => Ideal.tanh (X i * d (ix2 (row i) (0 : Fin 1)) + b (ix2 (0 : Fin 1) (col i)))

theorem biasedTanh_apply {N B : ℕ} (X : (⟨2, ![N, B]⟩ : Shape).Idx → EReal) (d : (⟨2, ![N, 1]⟩ : Shape).Idx → EReal)
    (b : (⟨2, ![1, B]⟩ : Shape).Idx → EReal) (n : Fin N) (c : Fin B) :
    biasedTanh X d b (ix2 n c) = Ideal.tanh (X (ix2 n c) * d (ix2 n (0 : Fin 1)) + b (ix2 (0 : Fin 1) c)) := rfl

end Cert.GcnSpec

end
-- ==== Proof.KernelHost.lean ====
/-
  The kernel program's host side as pure functions of the argument arrays, at the exact values.

  From the edge array: the edges' start and destination nodes (every node gets a loop), every node's degree and
  scale. One layer: the features' rows scaled and multiplied into the weights (a launch), the products' rows gathered
  at the edges' starts and summed into the edges' destinations (host operations), the sums scaled, biased and passed
  through the hyperbolic tangent (a launch). The program is two layers and the mean of the root nodes' rows.
-/
import proofs.«124303_j39805756900005_2_alg».proof.Proof.Gen.KernelIdeal
import proofs.«124303_j39805756900005_2_alg».proof.Proof.RegionSpec
import Idealize.ShloMosaic.PureOps.Ideal

noncomputable section

namespace Cert.KernelIdeal.HostSide

open Idealize.ShloMosaic Idealize.ShloMosaic.TcCoe Cert.KernelIdeal Cert.KernelIdeal.Facts₀ Cert.GcnSpec

/-- The edges' start nodes: row 0 of the edge array, then every node once (its own loop). -/
def srcV (ei : IVec S2x262144 32) : IVec S282144 32 :=
  concatenate S282144 0 [⟨S262144, (shapeCast _ (extractStridedSlice S1x262144 ![0, 0] ei slices_S2x262144_S1x262144_0_0) shapeCasts_S1x262144_S262144)⟩, ⟨S20000, (iotaInDim S20000 32 0)⟩] concatenates_S262144_S20000_S282144_d0

/-- The edges' destination nodes: row 1 of the edge array, then every node once. -/
def dstV (ei : IVec S2x262144 32) : IVec S282144 32 :=
  concatenate S282144 0 [⟨S262144, (shapeCast _ (extractStridedSlice S1x262144 ![1, 0] ei slices_S2x262144_S1x262144_1_0) shapeCasts_S1x262144_S262144)⟩, ⟨S20000, (iotaInDim S20000 32 0)⟩] concatenates_S262144_S20000_S282144_d0

/-- A vector of edge words as the one column of a [K, 1] array. -/
def colV (v : IVec S282144 32) : IVec S282144x1 32 :=
  broadcastInDim S282144x1 ![0] bcast_S282144_S282144x1_0 v

/-- The negative-index wrap applied to edge words before a gather. -/
def wrapV (v : IVec S282144 32) : IVec S282144 32 :=
  select (cmpi .slt v (broadcastInDim S282144 ![] bcast_S_S282144 (constantI S_ 32 0#32))) (addi v (broadcastInDim S282144 ![] bcast_S_S282144 (constantI S_ 32 20000#32))) v

/-- Every node's degree: ones summed over the edges landing on it. -/
def degV (ei : IVec S2x262144 32) : FVec Ideal S20000 .f32 :=
  Host.scatterAdd (F := Ideal) scatter_S20000_S282144x1_S282144_n_0_0_1 (broadcastInDim S20000 ![] bcast_S_S20000 (constant S_ .f32 0x00000000#32)) (broadcastInDim S282144x1 ![0] bcast_S282144_S282144x1_0 (dstV ei)) (broadcastInDim S282144 ![] bcast_S_S282144 (constant S_ .f32 0x3F800000#32))

/-- Every node's scale: 1 / √(max deg 1) where deg > 0, else 0. -/
def dinvV (ei : IVec S2x262144 32) : FVec Ideal S20000 .f32 :=
  select (cmpf (F := Ideal) .ogt (degV ei) (broadcastInDim S20000 ![] bcast_S_S20000 (constant S_ .f32 0x00000000#32))) (Host.rsqrt (maximumf (degV ei) (broadcastInDim S20000 ![] bcast_S_S20000 (constant S_ .f32 0x3F800000#32)))) (broadcastInDim S20000 ![] bcast_S_S20000 (id (constant S_ .f32 0x00000000#32)))

/-- The zero array an aggregation accumulates into. -/
def zerosV : FVec Ideal S20000x768 .f32 :=
  broadcastInDim S20000x768 ![] bcast_S_S20000x768 (constant S_ .f32 0x00000000#32)

/-- A bias vector as a one-row matrix. -/
def browV (b : FVec Ideal S768 .f32) : FVec Ideal S1x768 .f32 :=
  broadcastInDim S1x768 ![1] bcast_S768_S1x768_1 b

/-- The mean over the 64 root nodes' rows: gather the rows, sum them, divide by 64. -/
def tailV (roots : IVec S64 32) (H : FVec Ideal S20000x768 .f32) : FVec Ideal S768 .f32 :=
  Host.divf (Host.reduceAdd (Host.gather gather_S20000x768_S64x1_S64x768_1_0_n_n_0_1_1768 H (broadcastInDim S64x1 ![0] bcast_S64_S64x1_0 (select (cmpi .slt roots (broadcastInDim S64 ![] bcast_S_S64 (constantI S_ 32 0#32))) (addi roots (broadcastInDim S64 ![] bcast_S_S64 (constantI S_ 32 20000#32))) roots))) (constant S_ .f32 0x00000000#32) reducesTo_S64x768_S768_d0 h_S_) (broadcastInDim S768 ![] bcast_S_S768 (constant S_ .f32 0x42800000#32))

/-- The scale as the one column of a [N, 1] array. -/
def dcolV (ei : IVec S2x262144 32) : FVec Ideal S20000x1 .f32 :=
  broadcastInDim S20000x1 ![0] bcast_S20000_S20000x1_0 (dinvV ei)

/-- A weight matrix kept in the short float format. -/
def narrowV (W : FVec Ideal S768x768 .f32) : FVec Ideal S768x768 .bf16 :=
  truncf .bf16 W bitsLt_bf16_f32

/-- Rows gathered at the edges' starts and summed into the edges' destinations. -/
def aggV (ei : IVec S2x262144 32) (H : FVec Ideal S20000x768 .f32) : FVec Ideal S20000x768 .f32 :=
  Host.scatterAdd (F := Ideal) scatter_S20000x768_S282144x1_S282144x768_1_0_0_1 zerosV (colV (dstV ei))
    (Host.gather gather_S20000x768_S282144x1_S282144x768_1_0_n_n_0_1_1768 H (colV (wrapV (srcV ei))))

/-- One layer of the kernel program. -/
def layerV (ei : IVec S2x262144 32) (X : FVec Ideal S20000x768 .f32) (W : FVec Ideal S768x768 .f32) (b : FVec Ideal S768 .f32) :
    FVec Ideal S20000x768 .f32 :=
  biasedTanh (N := 20000) (B := 768) (aggV ei (scaledDense (N := 20000) (A := 768) (B := 768) X (dcolV ei) (narrowV W))) (dcolV ei) (browV b)

/-- The kernel program's result. -/
def valueV (x : FVec Ideal S20000x768 .f32) (ei : IVec S2x262144 32) (roots : IVec S64 32) (W1 : FVec Ideal S768x768 .f32)
    (b1 : FVec Ideal S768 .f32) (W2 : FVec Ideal S768x768 .f32) (b2 : FVec Ideal S768 .f32) : FVec Ideal S768 .f32 :=
  tailV roots (layerV ei (layerV ei x W1 b1) W2 b2)

end Cert.KernelIdeal.HostSide

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Launch0.lean ====
/-
  Launch 0 of the kernel program, read as one whole-array function.

  The launch walks twenty blocks of a thousand rows. At a block it loads the block's rows of the features, the same
  rows of the one-column scale, and the whole weight matrix; scales each row by its scale, multiplies into the
  weights from a zero accumulator, and stores the block. Entry (p, q) of what it stores is
  Σ_k (x (p, k) · d (p, 0)) · w (k, q): only row p of the block enters, so the stored block is the block of the
  rows-scaled dense product of the whole arrays, and since the twenty blocks tile the rows the result array ends
  holding that product everywhere.
-/
import proofs.«124303_j39805756900005_2_alg».proof.Proof.Gen.KernelIdeal.Frame
import proofs.«124303_j39805756900005_2_alg».proof.Proof.RegionSpec
import proofs.«124303_j39805756900005_2_alg».proof.Proof.LibDense
import proofs.«124303_j39805756900005_2_alg».proof.Proof.LibKeepdims
import Idealize.ShloMosaic.Lib.Pipeline.Value
import Idealize.ShloMosaic.PureOps.Ideal.Laws

set_option maxRecDepth 16384

noncomputable section

namespace Cert.KernelIdeal.Launch0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

/-! ## The body's product at an entry -/

theorem lhs0 (i : S1000x768.Idx) (q : dot_S1000x768_S768x768_S1000x768_1_0_0_1_n_n.contr.Idx) :
    (dot_S1000x768_S768x768_S1000x768_1_0_0_1_n_n.lhsIdx i q 0).val = (i 0).val := by
  unfold DotDims.lhsIdx
  rw [dif_neg (show ¬(0 : Fin S1000x768.rank) ∈ dot_S1000x768_S768x768_S1000x768_1_0_0_1_n_n.lhsBatch by decide), dif_pos (show (0 : Fin S1000x768.rank) ∈ dot_S1000x768_S768x768_S1000x768_1_0_0_1_n_n.lhsNonContracting by decide)]
  rfl
theorem lhs1 (i : S1000x768.Idx) (q : dot_S1000x768_S768x768_S1000x768_1_0_0_1_n_n.contr.Idx) :
    (dot_S1000x768_S768x768_S1000x768_1_0_0_1_n_n.lhsIdx i q 1).val = (q ⟨0, by decide⟩).val :=
  dot_S1000x768_S768x768_S1000x768_1_0_0_1_n_n.lhsIdx_val_of_single rfl i q
theorem rhs0 (i : S1000x768.Idx) (q : dot_S1000x768_S768x768_S1000x768_1_0_0_1_n_n.contr.Idx) :
    (dot_S1000x768_S768x768_S1000x768_1_0_0_1_n_n.rhsIdx i q 0).val = (q ⟨0, by decide⟩).val :=
  dot_S1000x768_S768x768_S1000x768_1_0_0_1_n_n.rhsIdx_val_of_single rfl i q
theorem rhs1 (i : S1000x768.Idx) (q : dot_S1000x768_S768x768_S1000x768_1_0_0_1_n_n.contr.Idx) :
    (dot_S1000x768_S768x768_S1000x768_1_0_0_1_n_n.rhsIdx i q 1).val = (i 1).val := by
  unfold DotDims.rhsIdx
  rw [dif_neg (show ¬(1 : Fin S768x768.rank) ∈ dot_S1000x768_S768x768_S1000x768_1_0_0_1_n_n.rhsBatch by decide), dif_pos (show (1 : Fin S768x768.rank) ∈ dot_S1000x768_S768x768_S1000x768_1_0_0_1_n_n.rhsNonContracting by decide)]
  rfl

/-- What the body stores, at (p, q): row p of the loaded features scaled by the row's scale, against column q of the
    loaded weights. -/
theorem stored_apply (x0 : Vec Ideal S1000x768 .f32) (x1 : Vec Ideal S1000x1 .f32) (x2 : Vec Ideal S768x768 .bf16)
    (p : Fin 1000) (q : Fin 768) :
    k0_pay1 (F := Ideal) x0 x1 x2 (ix2 p q) = ∑ k : Fin 768, (x0 (ix2 p k) * x1 (ix2 p (0 : Fin 1))) * x2 (ix2 k q) := by
  unfold k0_pay1
  refine (matmul_zero_plain_apply (n := 1000) (K := 768) (h := 768) dot_S1000x768_S768x768_S1000x768_1_0_0_1_n_n none rfl rfl
    lhs0 lhs1 rhs0 rhs1 _ _ p q).trans ?_
  refine Finset.sum_congr rfl fun k _ => ?_
  rw [truncf_apply, mulf_apply, shapeCast_self, shapeCast_self, broadcastTo_a1_ab_apply]

/-- The same at any index of the block. -/
theorem stored_eq (x0 : Vec Ideal S1000x768 .f32) (x1 : Vec Ideal S1000x1 .f32) (x2 : Vec Ideal S768x768 .bf16)
    (j : S1000x768.Idx) :
    k0_pay1 (F := Ideal) x0 x1 x2 j
      = ∑ k : Fin 768, (x0 (ix2 (row j) k) * x1 (ix2 (row j) (0 : Fin 1))) * x2 (ix2 k (col j)) := by
  obtain ⟨p, q, rfl⟩ : ∃ (p : Fin 1000) (q : Fin 768), j = ix2 p q := ⟨j 0, j 1, eq_ix2 j⟩
  exact stored_apply x0 x1 x2 p q

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the features', the scale's and the result's blocks move together down the
    rows, the weights stay, and no block moves along the columns. -/
theorem block_indices : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0 :=
  (by decide +kernel : ∀ t : Fin grid0.N, _)

/-- Every block of rows is some point's. -/
theorem block_onto : ∀ q0 : Fin 20, ∃ t : Fin cfg0.N, win0_3.index t = ![q0.val, 0] :=
  (by decide +kernel : ∀ q0 : Fin 20, ∃ t : Fin grid0.N, win0_3.index t = ![q0.val, 0])

/-- What point t writes back is block t of the rows-scaled dense product of the arrays as the launch finds them. -/
theorem written (c : Dev nD) (t : Fin cfg0.N) :
    (dat0 V c).flushed 3 t = ((cfg0.win 3).blk t).view.read (Elt Ideal)
      (scaledDense (N := 20000) (A := 768) (B := 768) (V c main_arg0) (V c main_v17) (V c main_v18)) := by
  show (cfg0.win 3).cut (grid0.coords t) ((dat0 V c).after 3 t) = _
  rw [after0_3]
  unfold out0_3
  rw [View.canon_unit_zero origin]
  simp only [View.ld_unit_zero (S := S1000x768) origin, View.ld_unit_zero (S := S1000x1) origin, View.ld_unit_zero (S := S768x768) origin]
  obtain ⟨e0, e1, e2, e3, e4, e5, e6⟩ := block_indices t
  refine funext fun (j : S1000x768.Idx) => ?_
  show k0_pay1 (F := Ideal) (iblk0 V c 0 t) (iblk0 V c 1 t) (iblk0 V c 2 t) j
    = scaledDense (N := 20000) (A := 768) (B := 768) (V c main_arg0) (V c main_v17) (V c main_v18) (((cfg0.win 3).blk t).view.emb j)
  refine (stored_eq _ _ _ j).trans ?_
  unfold scaledDense
  refine Finset.sum_congr rfl fun k _ => ?_
  have hj0 : (j 0).val < 1000 := (j 0).isLt
  have hj1 : (j 1).val < 768 := (j 1).isLt
  have h0 : iblk0 V c 0 t (ix2 (row j) k) = V c main_arg0 (ix2 (row (((cfg0.win 3).blk t).view.emb j)) k) := by
    show V c main_arg0 (((cfg0.win 0).blk t).view.emb (ix2 (row j) k)) = _
    refine congrArg (V c main_arg0) (funext fun a => Fin.ext ?_)
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 768 + 1 * k.val = k.val; omega
  have h1 : iblk0 V c 1 t (ix2 (row j) (0 : Fin 1)) = V c main_v17 (ix2 (row (((cfg0.win 3).blk t).view.emb j)) (0 : Fin 1)) := by
    show V c main_v17 (((cfg0.win 1).blk t).view.emb (ix2 (row j) (0 : Fin 1))) = _
    refine congrArg (V c main_v17) (funext fun a => Fin.ext ?_)
    match a with
    | ⟨0, _⟩ => show win0_1.index t (0 : Fin 2) * 1000 + 1 * (j 0).val = win0_3.index t (0 : Fin 2) * 1000 + 1 * (j 0).val; omega
    | ⟨1, _⟩ => show win0_1.index t (1 : Fin 2) * 1 + 1 * 0 = 0; omega
  have h2 : iblk0 V c 2 t (ix2 k (col j)) = V c main_v18 (ix2 k (col (((cfg0.win 3).blk t).view.emb j))) := by
    show V c main_v18 (((cfg0.win 2).blk t).view.emb (ix2 k (col j))) = _
    refine congrArg (V c main_v18) (funext fun a => Fin.ext ?_)
    match a with
    | ⟨0, _⟩ => show win0_2.index t (0 : Fin 2) * 768 + 1 * k.val = k.val; omega
    | ⟨1, _⟩ => show win0_2.index t (1 : Fin 2) * 768 + 1 * (j 1).val = win0_3.index t (1 : Fin 2) * 768 + 1 * (j 1).val; omega
  rw [h0, h1, h2]

/-- An index of the result array is in point t's block iff each coordinate is in the block's range on its axis. -/
theorem mem_block (t : Fin cfg0.N) (i : S20000x768.Idx) :
    i ∈ ((cfg0.win 3).blk t).view.set ↔ ∀ a : Fin 2, win0_3.index t a * S1000x768.size a ≤ (i a).val ∧ (i a).val < win0_3.index t a * S1000x768.size a + S1000x768.size a := by
  show i ∈ ((View.whole main_v22).slice (win0_3.rect t)).set ↔ _
  rw [View.set_slice_whole, Rect.mem_set_unit]
  exact Iff.rfl

/-- The blocks tile the array: row r is in the block of point r / 1000. -/
theorem tiled (i : S20000x768.Idx) :
    ∃ t : Fin cfg0.N, (cfg0.win 3).flush t = true ∧ i ∈ ((cfg0.win 3).blk t).view.set := by
  have hi0 : (i 0).val < 20000 := (i 0).isLt
  have hi1 : (i 1).val < 768 := (i 1).isLt
  obtain ⟨t, ht⟩ := block_onto ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 768 ≤ (i 1).val ∧ (i 1).val < win0_3.index t (1 : Fin 2) * 768 + 768; omega

/-- The result array after the launch: the rows-scaled dense product of the arrays as the launch finds them. -/
theorem result (c : Dev nD) :
    (dat0 V c).arrAt 3 cfg0.N
      = scaledDense (N := 20000) (A := 768) (B := 768) (V c main_arg0) (V c main_v17) (V c main_v18) :=
  (dat0 V c).arrAt_eq_of_cover 3 _ (fun t _ => written V c t) tiled

end Cert.KernelIdeal.Launch0

end
-- ==== Proof.Launch1.lean ====
/-
  Launch 1 of the kernel program, read as one whole-array function.

  The launch walks twenty blocks of a thousand rows. At a block it loads the block's rows of the aggregate, the same
  rows of the one-column scale, and the one-row bias; multiplies each entry by its row's scale, adds the bias entry of
  its column, takes the hyperbolic tangent and stores the block. Entry (p, q) of what it stores is
  tanh (a (p, q) · d (p, 0) + b (0, q)): the stored block is the block of that function of the whole arrays, and since
  the twenty blocks tile the rows the result array ends holding it everywhere.
-/
import proofs.«124303_j39805756900005_2_alg».proof.Proof.Gen.KernelIdeal.Frame
import proofs.«124303_j39805756900005_2_alg».proof.Proof.RegionSpec
import proofs.«124303_j39805756900005_2_alg».proof.Proof.LibKeepdims
import Idealize.ShloMosaic.Lib.Pipeline.Value
import Idealize.ShloMosaic.Lib.ValueLayout
import Idealize.ShloMosaic.PureOps.Ideal.Laws

set_option maxRecDepth 16384

noncomputable section

namespace Cert.KernelIdeal.Launch1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

/-! ## The body's value at an entry -/

/-- What the body stores, at (p, q). -/
theorem stored_apply (x0 : Vec Ideal S1000x768 .f32) (x1 : Vec Ideal S1000x1 .f32) (x2 : Vec Ideal S1x768 .f32)
    (p : Fin 1000) (q : Fin 768) :
    k1_pay1 (F := Ideal) x0 x1 x2 (ix2 p q)
      = Ideal.tanh (x0 (ix2 p q) * x1 (ix2 p (0 : Fin 1)) + x2 (ix2 (0 : Fin 1) q)) := by
  unfold k1_pay1
  refine congrArg Ideal.tanh ?_
  rw [addf_apply, mulf_apply, shapeCast_self, shapeCast_self, shapeCast_self, broadcastTo_a1_ab_apply, broadcastTo_1b_ab_apply]

/-- The same at any index of the block. -/
theorem stored_eq (x0 : Vec Ideal S1000x768 .f32) (x1 : Vec Ideal S1000x1 .f32) (x2 : Vec Ideal S1x768 .f32)
    (j : S1000x768.Idx) :
    k1_pay1 (F := Ideal) x0 x1 x2 j
      = Ideal.tanh (x0 j * x1 (ix2 (row j) (0 : Fin 1)) + x2 (ix2 (0 : Fin 1) (col j))) := by
  obtain ⟨p, q, rfl⟩ : ∃ (p : Fin 1000) (q : Fin 768), j = ix2 p q := ⟨j 0, j 1, eq_ix2 j⟩
  exact stored_apply x0 x1 x2 p q

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the aggregate's, the scale's and the result's blocks move together down the
    rows, the bias stays, and no block moves along the columns. -/
theorem block_indices : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every block of rows is some point's. -/
theorem block_onto : ∀ q0 : Fin 20, ∃ t : Fin cfg1.N, win1_3.index t = ![q0.val, 0] :=
  (by decide +kernel : ∀ q0 : Fin 20, ∃ t : Fin grid1.N, win1_3.index t = ![q0.val, 0])

/-- What point t writes back is block t of the scaled, biased hyperbolic tangent of the arrays as the launch finds them. -/
theorem written (c : Dev nD) (t : Fin cfg1.N) :
    (dat1 V c).flushed 3 t = ((cfg1.win 3).blk t).view.read (Elt Ideal)
      (biasedTanh (N := 20000) (B := 768) (V c main_v32) (V c main_v17) (V c main_v20)) := by
  show (cfg1.win 3).cut (grid1.coords t) ((dat1 V c).after 3 t) = _
  rw [after1_3]
  unfold out1_3
  rw [View.canon_unit_zero origin]
  simp only [View.ld_unit_zero (S := S1000x768) origin, View.ld_unit_zero (S := S1000x1) origin, View.ld_unit_zero (S := S1x768) origin]
  obtain ⟨e0, e1, e2, e3, e4, e5, e6⟩ := block_indices t
  refine funext fun (j : S1000x768.Idx) => ?_
  show k1_pay1 (F := Ideal) (iblk1 V c 0 t) (iblk1 V c 1 t) (iblk1 V c 2 t) j
    = biasedTanh (N := 20000) (B := 768) (V c main_v32) (V c main_v17) (V c main_v20) (((cfg1.win 3).blk t).view.emb j)
  refine (stored_eq _ _ _ j).trans ?_
  unfold biasedTanh
  have hj0 : (j 0).val < 1000 := (j 0).isLt
  have hj1 : (j 1).val < 768 := (j 1).isLt
  have h0 : iblk1 V c 0 t j = V c main_v32 (((cfg1.win 3).blk t).view.emb j) := by
    show V c main_v32 (((cfg1.win 0).blk t).view.emb j) = _
    refine congrArg (V c main_v32) (funext fun a => Fin.ext ?_)
    match a with
    | ⟨0, _⟩ => show win1_0.index t (0 : Fin 2) * 1000 + 1 * (j 0).val = win1_3.index t (0 : Fin 2) * 1000 + 1 * (j 0).val; omega
    | ⟨1, _⟩ => show win1_0.index t (1 : Fin 2) * 768 + 1 * (j 1).val = win1_3.index t (1 : Fin 2) * 768 + 1 * (j 1).val; omega
  have h1 : iblk1 V c 1 t (ix2 (row j) (0 : Fin 1)) = V c main_v17 (ix2 (row (((cfg1.win 3).blk t).view.emb j)) (0 : Fin 1)) := by
    show V c main_v17 (((cfg1.win 1).blk t).view.emb (ix2 (row j) (0 : Fin 1))) = _
    refine congrArg (V c main_v17) (funext fun a => Fin.ext ?_)
    match a with
    | ⟨0, _⟩ => show win1_1.index t (0 : Fin 2) * 1000 + 1 * (j 0).val = win1_3.index t (0 : Fin 2) * 1000 + 1 * (j 0).val; omega
    | ⟨1, _⟩ => show win1_1.index t (1 : Fin 2) * 1 + 1 * 0 = 0; omega
  have h2 : iblk1 V c 2 t (ix2 (0 : Fin 1) (col j)) = V c main_v20 (ix2 (0 : Fin 1) (col (((cfg1.win 3).blk t).view.emb j))) := by
    show V c main_v20 (((cfg1.win 2).blk t).view.emb (ix2 (0 : Fin 1) (col j))) = _
    refine congrArg (V c main_v20) (funext fun a => Fin.ext ?_)
    match a with
    | ⟨0, _⟩ => show win1_2.index t (0 : Fin 2) * 1 + 1 * 0 = 0; omega
    | ⟨1, _⟩ => show win1_2.index t (1 : Fin 2) * 768 + 1 * (j 1).val = win1_3.index t (1 : Fin 2) * 768 + 1 * (j 1).val; omega
  rw [h0, h1, h2]

/-- An index of the result array is in point t's block iff each coordinate is in the block's range on its axis. -/
theorem mem_block (t : Fin cfg1.N) (i : S20000x768.Idx) :
    i ∈ ((cfg1.win 3).blk t).view.set ↔ ∀ a : Fin 2, win1_3.index t a * S1000x768.size a ≤ (i a).val ∧ (i a).val < win1_3.index t a * S1000x768.size a + S1000x768.size a := by
  show i ∈ ((View.whole main_v33).slice (win1_3.rect t)).set ↔ _
  rw [View.set_slice_whole, Rect.mem_set_unit]
  exact Iff.rfl

/-- The blocks tile the array: row r is in the block of point r / 1000. -/
theorem tiled (i : S20000x768.Idx) :
    ∃ t : Fin cfg1.N, (cfg1.win 3).flush t = true ∧ i ∈ ((cfg1.win 3).blk t).view.set := by
  have hi0 : (i 0).val < 20000 := (i 0).isLt
  have hi1 : (i 1).val < 768 := (i 1).isLt
  obtain ⟨t, ht⟩ := block_onto ⟨(i 0).val / 1000, by omega⟩
  have q0 : win1_3.index t (0 : Fin 2) = (i 0).val / 1000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 768 ≤ (i 1).val ∧ (i 1).val < win1_3.index t (1 : Fin 2) * 768 + 768; omega

/-- The result array after the launch: the scaled, biased hyperbolic tangent of the arrays as the launch finds them. -/
theorem result (c : Dev nD) :
    (dat1 V c).arrAt 3 cfg1.N
      = biasedTanh (N := 20000) (B := 768) (V c main_v32) (V c main_v17) (V c main_v20) :=
  (dat1 V c).arrAt_eq_of_cover 3 _ (fun t _ => written V c t) tiled

end Cert.KernelIdeal.Launch1

end
-- ==== Proof.Launch2.lean ====
/-
  Launch 2 of the kernel program, read as one whole-array function.

  The launch walks twenty blocks of a thousand rows. At a block it loads the block's rows of the features, the same
  rows of the one-column scale, and the whole weight matrix; scales each row by its scale, multiplies into the
  weights from a zero accumulator, and stores the block. Entry (p, q) of what it stores is
  Σ_k (x (p, k) · d (p, 0)) · w (k, q): only row p of the block enters, so the stored block is the block of the
  rows-scaled dense product of the whole arrays, and since the twenty blocks tile the rows the result array ends
  holding that product everywhere.
-/
import proofs.«124303_j39805756900005_2_alg».proof.Proof.Gen.KernelIdeal.Frame
import proofs.«124303_j39805756900005_2_alg».proof.Proof.RegionSpec
import proofs.«124303_j39805756900005_2_alg».proof.Proof.LibDense
import proofs.«124303_j39805756900005_2_alg».proof.Proof.LibKeepdims
import Idealize.ShloMosaic.Lib.Pipeline.Value
import Idealize.ShloMosaic.PureOps.Ideal.Laws

set_option maxRecDepth 16384

noncomputable section

namespace Cert.KernelIdeal.Launch2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

/-! ## The body's product at an entry -/

theorem lhs0 (i : S1000x768.Idx) (q : dot_S1000x768_S768x768_S1000x768_1_0_0_1_n_n.contr.Idx) :
    (dot_S1000x768_S768x768_S1000x768_1_0_0_1_n_n.lhsIdx i q 0).val = (i 0).val := by
  unfold DotDims.lhsIdx
  rw [dif_neg (show ¬(0 : Fin S1000x768.rank) ∈ dot_S1000x768_S768x768_S1000x768_1_0_0_1_n_n.lhsBatch by decide), dif_pos (show (0 : Fin S1000x768.rank) ∈ dot_S1000x768_S768x768_S1000x768_1_0_0_1_n_n.lhsNonContracting by decide)]
  rfl
theorem lhs1 (i : S1000x768.Idx) (q : dot_S1000x768_S768x768_S1000x768_1_0_0_1_n_n.contr.Idx) :
    (dot_S1000x768_S768x768_S1000x768_1_0_0_1_n_n.lhsIdx i q 1).val = (q ⟨0, by decide⟩).val :=
  dot_S1000x768_S768x768_S1000x768_1_0_0_1_n_n.lhsIdx_val_of_single rfl i q
theorem rhs0 (i : S1000x768.Idx) (q : dot_S1000x768_S768x768_S1000x768_1_0_0_1_n_n.contr.Idx) :
    (dot_S1000x768_S768x768_S1000x768_1_0_0_1_n_n.rhsIdx i q 0).val = (q ⟨0, by decide⟩).val :=
  dot_S1000x768_S768x768_S1000x768_1_0_0_1_n_n.rhsIdx_val_of_single rfl i q
theorem rhs1 (i : S1000x768.Idx) (q : dot_S1000x768_S768x768_S1000x768_1_0_0_1_n_n.contr.Idx) :
    (dot_S1000x768_S768x768_S1000x768_1_0_0_1_n_n.rhsIdx i q 1).val = (i 1).val := by
  unfold DotDims.rhsIdx
  rw [dif_neg (show ¬(1 : Fin S768x768.rank) ∈ dot_S1000x768_S768x768_S1000x768_1_0_0_1_n_n.rhsBatch by decide), dif_pos (show (1 : Fin S768x768.rank) ∈ dot_S1000x768_S768x768_S1000x768_1_0_0_1_n_n.rhsNonContracting by decide)]
  rfl

/-- What the body stores, at (p, q): row p of the loaded features scaled by the row's scale, against column q of the
    loaded weights. -/
theorem stored_apply (x0 : Vec Ideal S1000x768 .f32) (x1 : Vec Ideal S1000x1 .f32) (x2 : Vec Ideal S768x768 .bf16)
    (p : Fin 1000) (q : Fin 768) :
    k2_pay1 (F := Ideal) x0 x1 x2 (ix2 p q) = ∑ k : Fin 768, (x0 (ix2 p k) * x1 (ix2 p (0 : Fin 1))) * x2 (ix2 k q) := by
  unfold k2_pay1
  refine (matmul_zero_plain_apply (n := 1000) (K := 768) (h := 768) dot_S1000x768_S768x768_S1000x768_1_0_0_1_n_n none rfl rfl
    lhs0 lhs1 rhs0 rhs1 _ _ p q).trans ?_
  refine Finset.sum_congr rfl fun k _ => ?_
  rw [truncf_apply, mulf_apply, shapeCast_self, shapeCast_self, broadcastTo_a1_ab_apply, shapeCast_self]

/-- The same at any index of the block. -/
theorem stored_eq (x0 : Vec Ideal S1000x768 .f32) (x1 : Vec Ideal S1000x1 .f32) (x2 : Vec Ideal S768x768 .bf16)
    (j : S1000x768.Idx) :
    k2_pay1 (F := Ideal) x0 x1 x2 j
      = ∑ k : Fin 768, (x0 (ix2 (row j) k) * x1 (ix2 (row j) (0 : Fin 1))) * x2 (ix2 k (col j)) := by
  obtain ⟨p, q, rfl⟩ : ∃ (p : Fin 1000) (q : Fin 768), j = ix2 p q := ⟨j 0, j 1, eq_ix2 j⟩
  exact stored_apply x0 x1 x2 p q

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the features', the scale's and the result's blocks move together down the
    rows, the weights stay, and no block moves along the columns. -/
theorem block_indices : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (1 : Fin 2) = 0 :=
  (by decide +kernel : ∀ t : Fin grid2.N, _)

/-- Every block of rows is some point's. -/
theorem block_onto : ∀ q0 : Fin 20, ∃ t : Fin cfg2.N, win2_3.index t = ![q0.val, 0] :=
  (by decide +kernel : ∀ q0 : Fin 20, ∃ t : Fin grid2.N, win2_3.index t = ![q0.val, 0])

/-- What point t writes back is block t of the rows-scaled dense product of the arrays as the launch finds them. -/
theorem written (c : Dev nD) (t : Fin cfg2.N) :
    (dat2 V c).flushed 3 t = ((cfg2.win 3).blk t).view.read (Elt Ideal)
      (scaledDense (N := 20000) (A := 768) (B := 768) (V c main_v33) (V c main_v17) (V c main_v19)) := by
  show (cfg2.win 3).cut (grid2.coords t) ((dat2 V c).after 3 t) = _
  rw [after2_3]
  unfold out2_3
  rw [View.canon_unit_zero origin]
  simp only [View.ld_unit_zero (S := S1000x768) origin, View.ld_unit_zero (S := S1000x1) origin, View.ld_unit_zero (S := S768x768) origin]
  obtain ⟨e0, e1, e2, e3, e4, e5, e6⟩ := block_indices t
  refine funext fun (j : S1000x768.Idx) => ?_
  show k2_pay1 (F := Ideal) (iblk2 V c 0 t) (iblk2 V c 1 t) (iblk2 V c 2 t) j
    = scaledDense (N := 20000) (A := 768) (B := 768) (V c main_v33) (V c main_v17) (V c main_v19) (((cfg2.win 3).blk t).view.emb j)
  refine (stored_eq _ _ _ j).trans ?_
  unfold scaledDense
  refine Finset.sum_congr rfl fun k _ => ?_
  have hj0 : (j 0).val < 1000 := (j 0).isLt
  have hj1 : (j 1).val < 768 := (j 1).isLt
  have h0 : iblk2 V c 0 t (ix2 (row j) k) = V c main_v33 (ix2 (row (((cfg2.win 3).blk t).view.emb j)) k) := by
    show V c main_v33 (((cfg2.win 0).blk t).view.emb (ix2 (row j) k)) = _
    refine congrArg (V c main_v33) (funext fun a => Fin.ext ?_)
    match a with
    | ⟨0, _⟩ => show win2_0.index t (0 : Fin 2) * 1000 + 1 * (j 0).val = win2_3.index t (0 : Fin 2) * 1000 + 1 * (j 0).val; omega
    | ⟨1, _⟩ => show win2_0.index t (1 : Fin 2) * 768 + 1 * k.val = k.val; omega
  have h1 : iblk2 V c 1 t (ix2 (row j) (0 : Fin 1)) = V c main_v17 (ix2 (row (((cfg2.win 3).blk t).view.emb j)) (0 : Fin 1)) := by
    show V c main_v17 (((cfg2.win 1).blk t).view.emb (ix2 (row j) (0 : Fin 1))) = _
    refine congrArg (V c main_v17) (funext fun a => Fin.ext ?_)
    match a with
    | ⟨0, _⟩ => show win2_1.index t (0 : Fin 2) * 1000 + 1 * (j 0).val = win2_3.index t (0 : Fin 2) * 1000 + 1 * (j 0).val; omega
    | ⟨1, _⟩ => show win2_1.index t (1 : Fin 2) * 1 + 1 * 0 = 0; omega
  have h2 : iblk2 V c 2 t (ix2 k (col j)) = V c main_v19 (ix2 k (col (((cfg2.win 3).blk t).view.emb j))) := by
    show V c main_v19 (((cfg2.win 2).blk t).view.emb (ix2 k (col j))) = _
    refine congrArg (V c main_v19) (funext fun a => Fin.ext ?_)
    match a with
    | ⟨0, _⟩ => show win2_2.index t (0 : Fin 2) * 768 + 1 * k.val = k.val; omega
    | ⟨1, _⟩ => show win2_2.index t (1 : Fin 2) * 768 + 1 * (j 1).val = win2_3.index t (1 : Fin 2) * 768 + 1 * (j 1).val; omega
  rw [h0, h1, h2]

/-- An index of the result array is in point t's block iff each coordinate is in the block's range on its axis. -/
theorem mem_block (t : Fin cfg2.N) (i : S20000x768.Idx) :
    i ∈ ((cfg2.win 3).blk t).view.set ↔ ∀ a : Fin 2, win2_3.index t a * S1000x768.size a ≤ (i a).val ∧ (i a).val < win2_3.index t a * S1000x768.size a + S1000x768.size a := by
  show i ∈ ((View.whole main_v34).slice (win2_3.rect t)).set ↔ _
  rw [View.set_slice_whole, Rect.mem_set_unit]
  exact Iff.rfl

/-- The blocks tile the array: row r is in the block of point r / 1000. -/
theorem tiled (i : S20000x768.Idx) :
    ∃ t : Fin cfg2.N, (cfg2.win 3).flush t = true ∧ i ∈ ((cfg2.win 3).blk t).view.set := by
  have hi0 : (i 0).val < 20000 := (i 0).isLt
  have hi1 : (i 1).val < 768 := (i 1).isLt
  obtain ⟨t, ht⟩ := block_onto ⟨(i 0).val / 1000, by omega⟩
  have q0 : win2_3.index t (0 : Fin 2) = (i 0).val / 1000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 768 ≤ (i 1).val ∧ (i 1).val < win2_3.index t (1 : Fin 2) * 768 + 768; omega

/-- The result array after the launch: the rows-scaled dense product of the arrays as the launch finds them. -/
theorem result (c : Dev nD) :
    (dat2 V c).arrAt 3 cfg2.N
      = scaledDense (N := 20000) (A := 768) (B := 768) (V c main_v33) (V c main_v17) (V c main_v19) :=
  (dat2 V c).arrAt_eq_of_cover 3 _ (fun t _ => written V c t) tiled

end Cert.KernelIdeal.Launch2

end
-- ==== Proof.Launch3.lean ====
/-
  Launch 3 of the kernel program, read as one whole-array function.

  The launch walks twenty blocks of a thousand rows. At a block it loads the block's rows of the aggregate, the same
  rows of the one-column scale, and the one-row bias; multiplies each entry by its row's scale, adds the bias entry of
  its column, takes the hyperbolic tangent and stores the block. Entry (p, q) of what it stores is
  tanh (a (p, q) · d (p, 0) + b (0, q)): the stored block is the block of that function of the whole arrays, and since
  the twenty blocks tile the rows the result array ends holding it everywhere.
-/
import proofs.«124303_j39805756900005_2_alg».proof.Proof.Gen.KernelIdeal.Frame
import proofs.«124303_j39805756900005_2_alg».proof.Proof.RegionSpec
import proofs.«124303_j39805756900005_2_alg».proof.Proof.LibKeepdims
import Idealize.ShloMosaic.Lib.Pipeline.Value
import Idealize.ShloMosaic.Lib.ValueLayout
import Idealize.ShloMosaic.PureOps.Ideal.Laws

set_option maxRecDepth 16384

noncomputable section

namespace Cert.KernelIdeal.Launch3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

/-! ## The body's value at an entry -/

/-- What the body stores, at (p, q). -/
theorem stored_apply (x0 : Vec Ideal S1000x768 .f32) (x1 : Vec Ideal S1000x1 .f32) (x2 : Vec Ideal S1x768 .f32)
    (p : Fin 1000) (q : Fin 768) :
    k3_pay1 (F := Ideal) x0 x1 x2 (ix2 p q)
      = Ideal.tanh (x0 (ix2 p q) * x1 (ix2 p (0 : Fin 1)) + x2 (ix2 (0 : Fin 1) q)) := by
  unfold k3_pay1
  refine congrArg Ideal.tanh ?_
  rw [addf_apply, mulf_apply, shapeCast_self, shapeCast_self, shapeCast_self, broadcastTo_a1_ab_apply, broadcastTo_1b_ab_apply]

/-- The same at any index of the block. -/
theorem stored_eq (x0 : Vec Ideal S1000x768 .f32) (x1 : Vec Ideal S1000x1 .f32) (x2 : Vec Ideal S1x768 .f32)
    (j : S1000x768.Idx) :
    k3_pay1 (F := Ideal) x0 x1 x2 j
      = Ideal.tanh (x0 j * x1 (ix2 (row j) (0 : Fin 1)) + x2 (ix2 (0 : Fin 1) (col j))) := by
  obtain ⟨p, q, rfl⟩ : ∃ (p : Fin 1000) (q : Fin 768), j = ix2 p q := ⟨j 0, j 1, eq_ix2 j⟩
  exact stored_apply x0 x1 x2 p q

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the aggregate's, the scale's and the result's blocks move together down the
    rows, the bias stays, and no block moves along the columns. -/
theorem block_indices : ∀ t : Fin cfg3.N, win3_0.index t (0 : Fin 2) = win3_3.index t (0 : Fin 2)
    ∧ win3_0.index t (1 : Fin 2) = win3_3.index t (1 : Fin 2)
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (1 : Fin 2) = 0 :=
  (by decide +kernel : ∀ t : Fin grid3.N, _)

/-- Every block of rows is some point's. -/
theorem block_onto : ∀ q0 : Fin 20, ∃ t : Fin cfg3.N, win3_3.index t = ![q0.val, 0] :=
  (by decide +kernel : ∀ q0 : Fin 20, ∃ t : Fin grid3.N, win3_3.index t = ![q0.val, 0])

/-- What point t writes back is block t of the scaled, biased hyperbolic tangent of the arrays as the launch finds them. -/
theorem written (c : Dev nD) (t : Fin cfg3.N) :
    (dat3 V c).flushed 3 t = ((cfg3.win 3).blk t).view.read (Elt Ideal)
      (biasedTanh (N := 20000) (B := 768) (V c main_v44) (V c main_v17) (V c main_v21)) := by
  show (cfg3.win 3).cut (grid3.coords t) ((dat3 V c).after 3 t) = _
  rw [after3_3]
  unfold out3_3
  rw [View.canon_unit_zero origin]
  simp only [View.ld_unit_zero (S := S1000x768) origin, View.ld_unit_zero (S := S1000x1) origin, View.ld_unit_zero (S := S1x768) origin]
  obtain ⟨e0, e1, e2, e3, e4, e5, e6⟩ := block_indices t
  refine funext fun (j : S1000x768.Idx) => ?_
  show k3_pay1 (F := Ideal) (iblk3 V c 0 t) (iblk3 V c 1 t) (iblk3 V c 2 t) j
    = biasedTanh (N := 20000) (B := 768) (V c main_v44) (V c main_v17) (V c main_v21) (((cfg3.win 3).blk t).view.emb j)
  refine (stored_eq _ _ _ j).trans ?_
  unfold biasedTanh
  have hj0 : (j 0).val < 1000 := (j 0).isLt
  have hj1 : (j 1).val < 768 := (j 1).isLt
  have h0 : iblk3 V c 0 t j = V c main_v44 (((cfg3.win 3).blk t).view.emb j) := by
    show V c main_v44 (((cfg3.win 0).blk t).view.emb j) = _
    refine congrArg (V c main_v44) (funext fun a => Fin.ext ?_)
    match a with
    | ⟨0, _⟩ => show win3_0.index t (0 : Fin 2) * 1000 + 1 * (j 0).val = win3_3.index t (0 : Fin 2) * 1000 + 1 * (j 0).val; omega
    | ⟨1, _⟩ => show win3_0.index t (1 : Fin 2) * 768 + 1 * (j 1).val = win3_3.index t (1 : Fin 2) * 768 + 1 * (j 1).val; omega
  have h1 : iblk3 V c 1 t (ix2 (row j) (0 : Fin 1)) = V c main_v17 (ix2 (row (((cfg3.win 3).blk t).view.emb j)) (0 : Fin 1)) := by
    show V c main_v17 (((cfg3.win 1).blk t).view.emb (ix2 (row j) (0 : Fin 1))) = _
    refine congrArg (V c main_v17) (funext fun a => Fin.ext ?_)
    match a with
    | ⟨0, _⟩ => show win3_1.index t (0 : Fin 2) * 1000 + 1 * (j 0).val = win3_3.index t (0 : Fin 2) * 1000 + 1 * (j 0).val; omega
    | ⟨1, _⟩ => show win3_1.index t (1 : Fin 2) * 1 + 1 * 0 = 0; omega
  have h2 : iblk3 V c 2 t (ix2 (0 : Fin 1) (col j)) = V c main_v21 (ix2 (0 : Fin 1) (col (((cfg3.win 3).blk t).view.emb j))) := by
    show V c main_v21 (((cfg3.win 2).blk t).view.emb (ix2 (0 : Fin 1) (col j))) = _
    refine congrArg (V c main_v21) (funext fun a => Fin.ext ?_)
    match a with
    | ⟨0, _⟩ => show win3_2.index t (0 : Fin 2) * 1 + 1 * 0 = 0; omega
    | ⟨1, _⟩ => show win3_2.index t (1 : Fin 2) * 768 + 1 * (j 1).val = win3_3.index t (1 : Fin 2) * 768 + 1 * (j 1).val; omega
  rw [h0, h1, h2]

/-- An index of the result array is in point t's block iff each coordinate is in the block's range on its axis. -/
theorem mem_block (t : Fin cfg3.N) (i : S20000x768.Idx) :
    i ∈ ((cfg3.win 3).blk t).view.set ↔ ∀ a : Fin 2, win3_3.index t a * S1000x768.size a ≤ (i a).val ∧ (i a).val < win3_3.index t a * S1000x768.size a + S1000x768.size a := by
  show i ∈ ((View.whole main_v45).slice (win3_3.rect t)).set ↔ _
  rw [View.set_slice_whole, Rect.mem_set_unit]
  exact Iff.rfl

/-- The blocks tile the array: row r is in the block of point r / 1000. -/
theorem tiled (i : S20000x768.Idx) :
    ∃ t : Fin cfg3.N, (cfg3.win 3).flush t = true ∧ i ∈ ((cfg3.win 3).blk t).view.set := by
  have hi0 : (i 0).val < 20000 := (i 0).isLt
  have hi1 : (i 1).val < 768 := (i 1).isLt
  obtain ⟨t, ht⟩ := block_onto ⟨(i 0).val / 1000, by omega⟩
  have q0 : win3_3.index t (0 : Fin 2) = (i 0).val / 1000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 768 ≤ (i 1).val ∧ (i 1).val < win3_3.index t (1 : Fin 2) * 768 + 768; omega

/-- The result array after the launch: the scaled, biased hyperbolic tangent of the arrays as the launch finds them. -/
theorem result (c : Dev nD) :
    (dat3 V c).arrAt 3 cfg3.N
      = biasedTanh (N := 20000) (B := 768) (V c main_v44) (V c main_v17) (V c main_v21) :=
  (dat3 V c).arrAt_eq_of_cover 3 _ (fun t _ => written V c t) tiled

end Cert.KernelIdeal.Launch3

end
-- ==== Proof.LibStretchRead.lean ====
/-
  Reading a stretch of host operations, two general tools.

  A module-local function's operations (a called `@relu`, `@_where`) are stated over references that carry the type of
  the value they hold; their results are moved between the value's type and the buffer's own type along an
  equation of types, the identity when the reference is a literal.  `toBuf_heq` removes the outermost such move from
  an equation: it suffices that the value and the buffer contents are equal as elements of the two (equal) types.
  `rest_results` finishes the reading of a stretch after a one-pass simplification has left some operations'
  results unread (inside a concatenation's list of operands, say): each operation's result at its own buffer is
  its function's value, at any other buffer what was there before.
-/
import Idealize.ShloMosaic.Lib.StableHlo.Run

namespace Idealize.ShloMosaic.StableHlo

/-- A value moved to its buffer's own type equals the buffer contents `w` as soon as it equals `w` across the two types. -/
theorem TRef.toBuf_heq {sig : RefSig} {Val : EltTy → Type} {T : BufTy} (x : TRef sig T) (v : T.Contents Val)
    (w : x.ref.ty.Contents Val) (h : HEq v w) : x.toBuf v = w := by
  obtain ⟨r, e, h2, h3⟩ := x
  subst e
  exact eq_of_heq h

/-- Finishes reading a stretch: each operation's result at its own buffer is its function's value, at any other
    buffer what was there before. -/
macro "rest_results" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.KernelChain.lean ====
/-
  The kernel program's result as a function of its arguments.

  The buffer contents at the run's boundaries are a fold from the launch memory. Read backwards from the result: the
  last stretch of host operations takes the mean of the root nodes' rows of what the fourth launch left; each
  launch leaves its result array at the whole-array function of the arrays it finds (the launches' own modules); each
  stretch of host operations between two launches gathers rows at the edges' starts and sums them into the edges'
  destinations; and the buffers the launches only read — the scale column, the narrowed weights, the bias rows, the
  edges' ends — hold through every boundary what the first stretches computed from the arguments, because no later
  operation writes them and a launch leaves an array it only reads as it found it. Composed, the result is two layers
  and the root mean of the argument arrays.
-/
import proofs.«124303_j39805756900005_2_alg».proof.Proof.Gen.KernelIdeal.Frame
import proofs.«124303_j39805756900005_2_alg».proof.Proof.KernelHost
import proofs.«124303_j39805756900005_2_alg».proof.Proof.Launch0
import proofs.«124303_j39805756900005_2_alg».proof.Proof.Launch1
import proofs.«124303_j39805756900005_2_alg».proof.Proof.Launch2
import proofs.«124303_j39805756900005_2_alg».proof.Proof.Launch3
import proofs.«124303_j39805756900005_2_alg».proof.Proof.LibStretchRead
import Idealize.ShloMosaic.Lib.StableHlo.Run

set_option maxRecDepth 16384

noncomputable section

namespace Cert.KernelIdeal.Chain

open Idealize.ShloMosaic Idealize.ShloMosaic.TcCoe Idealize.ShloMosaic.StableHlo
open Idealize.SL Idealize.SL.Sem
open Idealize.ShloMosaic.Pipeline (Dat Cfg Window)
open Cert.KernelIdeal Cert.KernelIdeal.Gen Cert.KernelIdeal.HostSide Cert.GcnSpec

/-- A buffer that no operation of a stretch writes holds after the stretch what it held before. -/
macro "unwritten" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## What the first launch finds: the stretches before it, read from the arguments -/

theorem at3_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp <;> rfl

set_option maxRecDepth 400000 in
/-- The scale column the launches read: the degrees counted from the edges' destinations, the reciprocal root of
    max deg 1 selected where the degree is positive and zero elsewhere (the selection is an outlined function of three
    operations), written as one column. -/
theorem at3_v17 : W3 m ρ c (Proc.devRef .tc main_v17) = dcolV (m ((c.tc : Thread nD τ).loc main_arg1)) := by
  show StableHlo.after hostOps0_2 (StableHlo.after hostOps0_1 (StableHlo.after hostOps0 (W0 m ρ c))) (Proc.devRef .tc main_v17) = _
  after_results_simp
  rest_results
  rfl

theorem at3_v18 : W3 m ρ c (Proc.devRef .tc main_v18) = narrowV (m ((c.tc : Thread nD τ).loc main_arg3)) := by
  show StableHlo.after hostOps0_2 (StableHlo.after hostOps0_1 (StableHlo.after hostOps0 (W0 m ρ c))) (Proc.devRef .tc main_v18) = _
  after_results_simp <;> rfl

theorem at3_v19 : W3 m ρ c (Proc.devRef .tc main_v19) = narrowV (m ((c.tc : Thread nD τ).loc main_arg5)) := by
  show StableHlo.after hostOps0_2 (StableHlo.after hostOps0_1 (StableHlo.after hostOps0 (W0 m ρ c))) (Proc.devRef .tc main_v19) = _
  after_results_simp <;> rfl

theorem at3_v20 : W3 m ρ c (Proc.devRef .tc main_v20) = browV (m ((c.tc : Thread nD τ).loc main_arg4)) := by
  show StableHlo.after hostOps0_2 (StableHlo.after hostOps0_1 (StableHlo.after hostOps0 (W0 m ρ c))) (Proc.devRef .tc main_v20) = _
  after_results_simp <;> rfl

theorem at3_v21 : W3 m ρ c (Proc.devRef .tc main_v21) = browV (m ((c.tc : Thread nD τ).loc main_arg6)) := by
  show StableHlo.after hostOps0_2 (StableHlo.after hostOps0_1 (StableHlo.after hostOps0 (W0 m ρ c))) (Proc.devRef .tc main_v21) = _
  after_results_simp <;> rfl

theorem at3_v3 : W3 m ρ c (Proc.devRef .tc main_v3) = srcV (m ((c.tc : Thread nD τ).loc main_arg1)) := by
  show StableHlo.after hostOps0_2 (StableHlo.after hostOps0_1 (StableHlo.after hostOps0 (W0 m ρ c))) (Proc.devRef .tc main_v3) = _
  after_results_simp <;> rfl

theorem at3_v6 : W3 m ρ c (Proc.devRef .tc main_v6) = dstV (m ((c.tc : Thread nD τ).loc main_arg1)) := by
  show StableHlo.after hostOps0_2 (StableHlo.after hostOps0_1 (StableHlo.after hostOps0 (W0 m ρ c))) (Proc.devRef .tc main_v6) = _
  after_results_simp <;> rfl

/-! ## The buffers the launches only read, carried through the boundaries -/

theorem at4_v17 : W4 m ρ c (Proc.devRef .tc main_v17) = dcolV (m ((c.tc : Thread nD τ).loc main_arg1)) :=
  ((W4_arr m ρ c 1).trans (((dat0 (V3 m ρ) c).arrAt_in 1 rfl _).trans (A_eq0 (V3 m ρ) c 1))).trans (at3_v17 m ρ c)
theorem at5_v17 : W5 m ρ c (Proc.devRef .tc main_v17) = dcolV (m ((c.tc : Thread nD τ).loc main_arg1)) :=
  (by unwritten hostOps1 : W5 m ρ c (Proc.devRef .tc main_v17) = W4 m ρ c (Proc.devRef .tc main_v17)).trans (at4_v17 m ρ c)
theorem at6_v17 : W6 m ρ c (Proc.devRef .tc main_v17) = dcolV (m ((c.tc : Thread nD τ).loc main_arg1)) :=
  ((W6_arr m ρ c 1).trans (((dat1 (V5 m ρ) c).arrAt_in 1 rfl _).trans (A_eq1 (V5 m ρ) c 1))).trans (at5_v17 m ρ c)
theorem at7_v17 : W7 m ρ c (Proc.devRef .tc main_v17) = dcolV (m ((c.tc : Thread nD τ).loc main_arg1)) :=
  ((W7_arr m ρ c 1).trans (((dat2 (V6 m ρ) c).arrAt_in 1 rfl _).trans (A_eq2 (V6 m ρ) c 1))).trans (at6_v17 m ρ c)
theorem at8_v17 : W8 m ρ c (Proc.devRef .tc main_v17) = dcolV (m ((c.tc : Thread nD τ).loc main_arg1)) :=
  (by unwritten hostOps3 : W8 m ρ c (Proc.devRef .tc main_v17) = W7 m ρ c (Proc.devRef .tc main_v17)).trans (at7_v17 m ρ c)
theorem at4_v19 : W4 m ρ c (Proc.devRef .tc main_v19) = narrowV (m ((c.tc : Thread nD τ).loc main_arg5)) :=
  (W4_of_ne m ρ c main_v19 (by decide)).trans (at3_v19 m ρ c)
theorem at5_v19 : W5 m ρ c (Proc.devRef .tc main_v19) = narrowV (m ((c.tc : Thread nD τ).loc main_arg5)) :=
  (by unwritten hostOps1 : W5 m ρ c (Proc.devRef .tc main_v19) = W4 m ρ c (Proc.devRef .tc main_v19)).trans (at4_v19 m ρ c)
theorem at6_v19 : W6 m ρ c (Proc.devRef .tc main_v19) = narrowV (m ((c.tc : Thread nD τ).loc main_arg5)) :=
  (W6_of_ne m ρ c main_v19 (by decide)).trans (at5_v19 m ρ c)
theorem at4_v20 : W4 m ρ c (Proc.devRef .tc main_v20) = browV (m ((c.tc : Thread nD τ).loc main_arg4)) :=
  (W4_of_ne m ρ c main_v20 (by decide)).trans (at3_v20 m ρ c)
theorem at5_v20 : W5 m ρ c (Proc.devRef .tc main_v20) = browV (m ((c.tc : Thread nD τ).loc main_arg4)) :=
  (by unwritten hostOps1 : W5 m ρ c (Proc.devRef .tc main_v20) = W4 m ρ c (Proc.devRef .tc main_v20)).trans (at4_v20 m ρ c)
theorem at4_v21 : W4 m ρ c (Proc.devRef .tc main_v21) = browV (m ((c.tc : Thread nD τ).loc main_arg6)) :=
  (W4_of_ne m ρ c main_v21 (by decide)).trans (at3_v21 m ρ c)
theorem at5_v21 : W5 m ρ c (Proc.devRef .tc main_v21) = browV (m ((c.tc : Thread nD τ).loc main_arg6)) :=
  (by unwritten hostOps1 : W5 m ρ c (Proc.devRef .tc main_v21) = W4 m ρ c (Proc.devRef .tc main_v21)).trans (at4_v21 m ρ c)
theorem at6_v21 : W6 m ρ c (Proc.devRef .tc main_v21) = browV (m ((c.tc : Thread nD τ).loc main_arg6)) :=
  (W6_of_ne m ρ c main_v21 (by decide)).trans (at5_v21 m ρ c)
theorem at7_v21 : W7 m ρ c (Proc.devRef .tc main_v21) = browV (m ((c.tc : Thread nD τ).loc main_arg6)) :=
  (W7_of_ne m ρ c main_v21 (by decide)).trans (at6_v21 m ρ c)
theorem at8_v21 : W8 m ρ c (Proc.devRef .tc main_v21) = browV (m ((c.tc : Thread nD τ).loc main_arg6)) :=
  (by unwritten hostOps3 : W8 m ρ c (Proc.devRef .tc main_v21) = W7 m ρ c (Proc.devRef .tc main_v21)).trans (at7_v21 m ρ c)
theorem at4_v3 : W4 m ρ c (Proc.devRef .tc main_v3) = srcV (m ((c.tc : Thread nD τ).loc main_arg1)) :=
  (W4_of_ne m ρ c main_v3 (by decide)).trans (at3_v3 m ρ c)
theorem at5_v3 : W5 m ρ c (Proc.devRef .tc main_v3) = srcV (m ((c.tc : Thread nD τ).loc main_arg1)) :=
  (by unwritten hostOps1 : W5 m ρ c (Proc.devRef .tc main_v3) = W4 m ρ c (Proc.devRef .tc main_v3)).trans (at4_v3 m ρ c)
theorem at6_v3 : W6 m ρ c (Proc.devRef .tc main_v3) = srcV (m ((c.tc : Thread nD τ).loc main_arg1)) :=
  (W6_of_ne m ρ c main_v3 (by decide)).trans (at5_v3 m ρ c)
theorem at7_v3 : W7 m ρ c (Proc.devRef .tc main_v3) = srcV (m ((c.tc : Thread nD τ).loc main_arg1)) :=
  (W7_of_ne m ρ c main_v3 (by decide)).trans (at6_v3 m ρ c)
theorem at4_v6 : W4 m ρ c (Proc.devRef .tc main_v6) = dstV (m ((c.tc : Thread nD τ).loc main_arg1)) :=
  (W4_of_ne m ρ c main_v6 (by decide)).trans (at3_v6 m ρ c)
theorem at5_v6 : W5 m ρ c (Proc.devRef .tc main_v6) = dstV (m ((c.tc : Thread nD τ).loc main_arg1)) :=
  (by unwritten hostOps1 : W5 m ρ c (Proc.devRef .tc main_v6) = W4 m ρ c (Proc.devRef .tc main_v6)).trans (at4_v6 m ρ c)
theorem at6_v6 : W6 m ρ c (Proc.devRef .tc main_v6) = dstV (m ((c.tc : Thread nD τ).loc main_arg1)) :=
  (W6_of_ne m ρ c main_v6 (by decide)).trans (at5_v6 m ρ c)
theorem at7_v6 : W7 m ρ c (Proc.devRef .tc main_v6) = dstV (m ((c.tc : Thread nD τ).loc main_arg1)) :=
  (W7_of_ne m ρ c main_v6 (by decide)).trans (at6_v6 m ρ c)

/-- The root indices reach the last stretch as launched. -/
theorem at9_arg2 : W9 m ρ c (Proc.devRef .tc main_arg2) = (m ((c.tc : Thread nD τ).loc main_arg2)) :=
  (by unwritten hostOps4 : W10 m ρ c (Proc.devRef .tc main_arg2) = W9 m ρ c (Proc.devRef .tc main_arg2)).symm.trans (W10_main_arg2 m ρ c)

/-! ## The layers -/

/-- After the first launch: the features' rows scaled and multiplied into the first weights. -/
theorem at4_v22 : W4 m ρ c (Proc.devRef .tc main_v22)
    = scaledDense (N := 20000) (A := 768) (B := 768) (m ((c.tc : Thread nD τ).loc main_arg0)) (dcolV (m ((c.tc : Thread nD τ).loc main_arg1))) (narrowV (m ((c.tc : Thread nD τ).loc main_arg3))) := by
  refine (W4_arr m ρ c 3).trans ((Launch0.result (V3 m ρ) c).trans ?_)
  show scaledDense (N := 20000) (A := 768) (B := 768) (W3 m ρ c (Proc.devRef .tc main_arg0)) (W3 m ρ c (Proc.devRef .tc main_v17)) (W3 m ρ c (Proc.devRef .tc main_v18)) = _
  rw [at3_arg0 m ρ c, at3_v17 m ρ c, at3_v18 m ρ c]

/-- After the stretch that follows: those rows gathered at the edges' starts and summed into their destinations. -/
theorem at5_v32 : W5 m ρ c (Proc.devRef .tc main_v32)
    = aggV (m ((c.tc : Thread nD τ).loc main_arg1)) (scaledDense (N := 20000) (A := 768) (B := 768) (m ((c.tc : Thread nD τ).loc main_arg0)) (dcolV (m ((c.tc : Thread nD τ).loc main_arg1))) (narrowV (m ((c.tc : Thread nD τ).loc main_arg3)))) := by
  have h3 := at4_v3 m ρ c
  have h6 := at4_v6 m ρ c
  have h22 := at4_v22 m ρ c
  show StableHlo.after hostOps1 (W4 m ρ c) (Proc.devRef .tc main_v32) = _
  after_results_simp
  rw [h3, h6, h22]
  rfl

/-- After the second launch: the first layer. -/
theorem at6_v33 : W6 m ρ c (Proc.devRef .tc main_v33) = layerV (m ((c.tc : Thread nD τ).loc main_arg1)) (m ((c.tc : Thread nD τ).loc main_arg0)) (m ((c.tc : Thread nD τ).loc main_arg3)) (m ((c.tc : Thread nD τ).loc main_arg4)) := by
  refine (W6_arr m ρ c 3).trans ((Launch1.result (V5 m ρ) c).trans ?_)
  show biasedTanh (N := 20000) (B := 768) (W5 m ρ c (Proc.devRef .tc main_v32)) (W5 m ρ c (Proc.devRef .tc main_v17)) (W5 m ρ c (Proc.devRef .tc main_v20)) = _
  rw [at5_v32 m ρ c, at5_v17 m ρ c, at5_v20 m ρ c]
  rfl

/-- After the third launch: the first layer's rows scaled and multiplied into the second weights. -/
theorem at7_v34 : W7 m ρ c (Proc.devRef .tc main_v34)
    = scaledDense (N := 20000) (A := 768) (B := 768) (layerV (m ((c.tc : Thread nD τ).loc main_arg1)) (m ((c.tc : Thread nD τ).loc main_arg0)) (m ((c.tc : Thread nD τ).loc main_arg3)) (m ((c.tc : Thread nD τ).loc main_arg4))) (dcolV (m ((c.tc : Thread nD τ).loc main_arg1))) (narrowV (m ((c.tc : Thread nD τ).loc main_arg5))) := by
  refine (W7_arr m ρ c 3).trans ((Launch2.result (V6 m ρ) c).trans ?_)
  show scaledDense (N := 20000) (A := 768) (B := 768) (W6 m ρ c (Proc.devRef .tc main_v33)) (W6 m ρ c (Proc.devRef .tc main_v17)) (W6 m ρ c (Proc.devRef .tc main_v19)) = _
  rw [at6_v33 m ρ c, at6_v17 m ρ c, at6_v19 m ρ c]

/-- After the stretch that follows: gathered and summed again. -/
theorem at8_v44 : W8 m ρ c (Proc.devRef .tc main_v44)
    = aggV (m ((c.tc : Thread nD τ).loc main_arg1)) (scaledDense (N := 20000) (A := 768) (B := 768) (layerV (m ((c.tc : Thread nD τ).loc main_arg1)) (m ((c.tc : Thread nD τ).loc main_arg0)) (m ((c.tc : Thread nD τ).loc main_arg3)) (m ((c.tc : Thread nD τ).loc main_arg4))) (dcolV (m ((c.tc : Thread nD τ).loc main_arg1))) (narrowV (m ((c.tc : Thread nD τ).loc main_arg5)))) := by
  have h3 := at7_v3 m ρ c
  have h6 := at7_v6 m ρ c
  have h34 := at7_v34 m ρ c
  show StableHlo.after hostOps3 (W7 m ρ c) (Proc.devRef .tc main_v44) = _
  after_results_simp
  rw [h3, h6, h34]
  rfl

/-- After the fourth launch: the second layer. -/
theorem at9_v45 : W9 m ρ c (Proc.devRef .tc main_v45)
    = layerV (m ((c.tc : Thread nD τ).loc main_arg1)) (layerV (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6)) := by
  refine (W9_arr m ρ c 3).trans ((Launch3.result (V8 m ρ) c).trans ?_)
  show biasedTanh (N := 20000) (B := 768) (W8 m ρ c (Proc.devRef .tc main_v44)) (W8 m ρ c (Proc.devRef .tc main_v17)) (W8 m ρ c (Proc.devRef .tc main_v21)) = _
  rw [at8_v44 m ρ c, at8_v17 m ρ c, at8_v21 m ρ c]
  rfl

/-- The result: the mean of the root nodes' rows of the second layer. -/
theorem result : W10 m ρ c (Proc.devRef .tc main_v55)
    = valueV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h2 := at9_arg2 m ρ c
  have h45 := at9_v45 m ρ c
  show StableHlo.after hostOps4 (W9 m ρ c) (Proc.devRef .tc main_v55) = _
  after_results_simp
  rw [h2, h45]
  rfl

end Cert.KernelIdeal.Chain

end
-- ==== Proof.RefHost.lean ====
/-
  The reference program as pure functions of the argument arrays, at the exact values.

  From the edge array: the edges' start and destination nodes (every node gets a loop), every node's degree and
  scale, and every edge's weight, the product of the scales at its two ends. One layer: the features multiplied into the
  weights, the products' rows gathered at the edges' starts, each times its edge's weight, summed into the edges'
  destinations, the bias added, the hyperbolic tangent taken. The program is two layers and the mean of the root
  nodes' rows, and the composed term its run ends at is that function of the arguments.
-/
import proofs.«124303_j39805756900005_2_alg».proof.Proof.Gen.ReferenceIdeal
import proofs.«124303_j39805756900005_2_alg».proof.Proof.RefRunP
import Idealize.ShloMosaic.PureOps.Ideal

set_option maxRecDepth 8192

noncomputable section

namespace Cert.ReferenceIdeal.HostSide

open Idealize.ShloMosaic Idealize.ShloMosaic.TcCoe Idealize.SL.Sem Cert.ReferenceIdeal Cert.ReferenceIdeal.Facts₀

/-- The edges' start nodes: row 0 of the edge array, then every node once (its own loop). -/
def srcV (ei : IVec S2x262144 32) : IVec S282144 32 :=
  concatenate S282144 0 [⟨S262144, (shapeCast _ (extractStridedSlice S1x262144 ![0, 0] ei slices_S2x262144_S1x262144_0_0) shapeCasts_S1x262144_S262144)⟩, ⟨S20000, (iotaInDim S20000 32 0)⟩] concatenates_S262144_S20000_S282144_d0

/-- The edges' destination nodes: row 1 of the edge array, then every node once. -/
def dstV (ei : IVec S2x262144 32) : IVec S282144 32 :=
  concatenate S282144 0 [⟨S262144, (shapeCast _ (extractStridedSlice S1x262144 ![1, 0] ei slices_S2x262144_S1x262144_1_0) shapeCasts_S1x262144_S262144)⟩, ⟨S20000, (iotaInDim S20000 32 0)⟩] concatenates_S262144_S20000_S282144_d0

/-- A vector of edge words as the one column of a [K, 1] array. -/
def colV (v : IVec S282144 32) : IVec S282144x1 32 :=
  broadcastInDim S282144x1 ![0] bcast_S282144_S282144x1_0 v

/-- The negative-index wrap applied to edge words before a gather. -/
def wrapV (v : IVec S282144 32) : IVec S282144 32 :=
  select (cmpi .slt v (broadcastInDim S282144 ![] bcast_S_S282144 (constantI S_ 32 0#32))) (addi v (broadcastInDim S282144 ![] bcast_S_S282144 (constantI S_ 32 20000#32))) v

/-- Every node's degree: ones summed over the edges landing on it. -/
def degV (ei : IVec S2x262144 32) : FVec Ideal S20000 .f32 :=
  Host.scatterAdd (F := Ideal) scatter_S20000_S282144x1_S282144_n_0_0_1 (broadcastInDim S20000 ![] bcast_S_S20000 (constant S_ .f32 0x00000000#32)) (broadcastInDim S282144x1 ![0] bcast_S282144_S282144x1_0 (dstV ei)) (broadcastInDim S282144 ![] bcast_S_S282144 (constant S_ .f32 0x3F800000#32))

/-- Every node's scale: 1 / √(max deg 1) where deg > 0, else 0. -/
def dinvV (ei : IVec S2x262144 32) : FVec Ideal S20000 .f32 :=
  select (cmpf (F := Ideal) .ogt (degV ei) (broadcastInDim S20000 ![] bcast_S_S20000 (constant S_ .f32 0x00000000#32))) (Host.rsqrt (maximumf (degV ei) (broadcastInDim S20000 ![] bcast_S_S20000 (constant S_ .f32 0x3F800000#32)))) (broadcastInDim S20000 ![] bcast_S_S20000 (id (constant S_ .f32 0x00000000#32)))

/-- The zero array an aggregation accumulates into. -/
def zerosV : FVec Ideal S20000x768 .f32 :=
  broadcastInDim S20000x768 ![] bcast_S_S20000x768 (constant S_ .f32 0x00000000#32)

/-- A bias vector as a one-row matrix. -/
def browV (b : FVec Ideal S768 .f32) : FVec Ideal S1x768 .f32 :=
  broadcastInDim S1x768 ![1] bcast_S768_S1x768_1 b

/-- The mean over the 64 root nodes' rows: gather the rows, sum them, divide by 64. -/
def tailV (roots : IVec S64 32) (H : FVec Ideal S20000x768 .f32) : FVec Ideal S768 .f32 :=
  Host.divf (Host.reduceAdd (Host.gather gather_S20000x768_S64x1_S64x768_1_0_n_n_0_1_1768 H (broadcastInDim S64x1 ![0] bcast_S64_S64x1_0 (select (cmpi .slt roots (broadcastInDim S64 ![] bcast_S_S64 (constantI S_ 32 0#32))) (addi roots (broadcastInDim S64 ![] bcast_S_S64 (constantI S_ 32 20000#32))) roots))) (constant S_ .f32 0x00000000#32) reducesTo_S64x768_S768_d0 h_S_) (broadcastInDim S768 ![] bcast_S_S768 (constant S_ .f32 0x42800000#32))

/-- Every edge's weight: the scale at its start times the scale at its destination. -/
def normV (ei : IVec S2x262144 32) : FVec Ideal S282144 .f32 :=
  mulf (Host.gather gather_S20000_S282144x1_S282144_n_0_n_n_0_1_1 (dinvV ei) (colV (wrapV (srcV ei))))
    (Host.gather gather_S20000_S282144x1_S282144_n_0_n_n_0_1_1 (dinvV ei) (colV (wrapV (dstV ei))))

/-- One layer of the reference program. -/
def layerV (ei : IVec S2x262144 32) (X : FVec Ideal S20000x768 .f32) (W : FVec Ideal S768x768 .f32) (b : FVec Ideal S768 .f32) :
    FVec Ideal S20000x768 .f32 :=
  Host.tanh (addf (Host.scatterAdd (F := Ideal) scatter_S20000x768_S282144x1_S282144x768_1_0_0_1 zerosV (colV (dstV ei))
      (mulf (Host.gather gather_S20000x768_S282144x1_S282144x768_1_0_n_n_0_1_1768
          (Host.dotGeneral dot_S20000x768_S768x768_S20000x768_1_0_0_1_n_n none X W) (colV (wrapV (srcV ei))))
        (broadcastInDim S282144x768 ![0, 1] bcast_S282144x1_S282144x768_0_1 (broadcastInDim S282144x1 ![0] bcast_S282144_S282144x1_0 (normV ei)))))
    (broadcastInDim S20000x768 ![0, 1] bcast_S1x768_S20000x768_0_1 (browV b)))

/-- The reference program's result. -/
def valueV (x : FVec Ideal S20000x768 .f32) (ei : IVec S2x262144 32) (roots : IVec S64 32) (W1 : FVec Ideal S768x768 .f32)
    (b1 : FVec Ideal S768 .f32) (W2 : FVec Ideal S768x768 .f32) (b2 : FVec Ideal S768 .f32) : FVec Ideal S768 .f32 :=
  tailV roots (layerV ei (layerV ei x W1 b1) W2 b2)

/-- The composed term the reference's run ends at is that function of the arguments. -/
theorem res_eq (m : (ℓ : Loc nD τ sig) → Buf (Elt Ideal) ℓ) (c : Dev nD) :
    Cert.ReferenceIdeal.RunP.res_main_v102 (F := Ideal) m c
      = valueV (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.RunP.res_main_v102 valueV layerV tailV normV zerosV browV dinvV degV colV wrapV srcV dstV
  rfl

end Cert.ReferenceIdeal.HostSide

end
-- ==== Proof.LibScatterSplit.lean ====
/-
  ONE ACCUMULATING SCATTER OF THREE INTERLEAVED ARRAYS IS THREE SCATTERS IN TURN (at the ideal instance).

  An accumulating scatter along rows adds, to element (b, v) of a [B, V] operand, every update element (b, q) of a
  [B, N] update array whose index entry q of an [N, 1] index array, read as a signed integer, is v; an entry outside
  [0, V) lands nowhere. At the ideal instance the elements are extended reals and the result is the operand's element
  plus the sum of the updates landing on it.

  If a long axis of extent 3N interleaves three arrays of extent N (position 3p + k holds entry p of the k-th), the
  sum over the long axis splits, by the bijection (p, k) to 3p + k, into the three sums over p; addition of extended
  reals is commutative and associative, so the one scatter over the long axis equals the three scatters applied one
  after the other, whatever the values and whatever the indices (colliding, negative or out of range included).

  The statements: the coordinate reading of the landing condition (resultIdx?_eq_some_iff for any dimension numbers,
  resultIdx?_rows for a scatter along rows), the scatter read at one element (hostScatterAdd_rows_apply), the
  bijection (interleave3), the split of the row sum (rowSum_interleave3) and the theorem in four forms: general
  extents or the extents 8, 6890, 1048576, 3145728; the three arrays as a family over k or named one by one.
-/
import Idealize.ShloMosaic.Lib.ValueIdx

noncomputable section

open scoped BigOperators

namespace Cert.Lib.ScatterSplit

open Idealize.ShloMosaic Idealize.ShloMosaic.ValueIdx

/-- An update index lands on a result index exactly when, on every operand axis, the result coordinate is the
    start plus the window coordinate. -/
theorem resultIdx?_eq_some_iff {s si u : Shape} (d : ScatterDims s si u) {w : Nat} (j : u.Idx) (idx : IVec si w)
    (i : s.Idx) :
    d.resultIdx? j idx = some i ↔ ∀ a, ((i a).val : Int) = d.start j idx a + d.window j a := by
  unfold ScatterDims.resultIdx?
  split_ifs with h
  · constructor
    · intro heq a
      have := Option.some.inj heq
      subst this
      show ((d.start j idx a + d.window j a).toNat : Int) = _
      exact Int.toNat_of_nonneg (h a).1
    · intro heq
      congr 1
      funext a
      refine Fin.ext ?_
      show (d.start j idx a + d.window j a).toNat = (i a).val
      have := heq a
      omega
  · constructor
    · intro heq
      exact absurd heq (by simp)
    · intro heq
      exfalso
      apply h
      intro a
      have := heq a
      have := (i a).isLt
      omega

/-- A scatter along rows (update window axis 0, inserted operand axis 1, the one start component going to operand
    axis 1, the index vector on axis 1 of an [N, 1] index array): update position (b, q) lands on result element
    (b', v) exactly when b' = b and v is entry q of the index array read as a signed integer. -/
theorem resultIdx?_rows {B V N w : Nat}
    (d : ScatterDims ⟨2, ![B, V]⟩ ⟨2, ![N, 1]⟩ ⟨2, ![B, N]⟩)
    (hu : d.updateWindowDims = [0]) (hi : d.insertedWindowDims = [1])
    (hs : d.scatterDimsToOperandDims = [1]) (hv : d.indexVectorDim = 1)
    (idx : IVec ⟨2, ![N, 1]⟩ w) (j : (⟨2, ![B, N]⟩ : Shape).Idx) (i : (⟨2, ![B, V]⟩ : Shape).Idx) :
    d.resultIdx? j idx = some i ↔
      (i 0).val = (j 0).val ∧ ((i 1).val : Int) = (idx (ix2 (j 1) 0)).toInt := by
  obtain ⟨uw, iw, sd, iv, wf⟩ := d
  simp only at hu hi hs hv
  subst hu hi hs hv
  rw [resultIdx?_eq_some_iff]
  have hs0 : (⟨[0], [1], [1], 1, wf⟩ : ScatterDims ⟨2, ![B, V]⟩ ⟨2, ![N, 1]⟩ ⟨2, ![B, N]⟩).start j idx 0 = 0 := by
    unfold ScatterDims.start
    rw [dif_neg (show (0 : Fin 2) ∉ [1] by decide)]
  have hs1 : (⟨[0], [1], [1], 1, wf⟩ : ScatterDims ⟨2, ![B, V]⟩ ⟨2, ![N, 1]⟩ ⟨2, ![B, N]⟩).start j idx 1
      = (idx (ix2 (j 1) 0)).toInt := by
    unfold ScatterDims.start
    rw [dif_pos (show (1 : Fin 2) ∈ [1] from List.mem_singleton.mpr rfl)]
    congr 2
    funext b; refine Fin.ext ?_
    match b with
    | ⟨0, _⟩ => rfl
    | ⟨1, _⟩ => rfl
  have hw0 : (⟨[0], [1], [1], 1, wf⟩ : ScatterDims ⟨2, ![B, V]⟩ ⟨2, ![N, 1]⟩ ⟨2, ![B, N]⟩).window j 0 = (j 0).val := by
    have hp : (0 : Fin 2) ∈ (⟨[0], [1], [1], 1, wf⟩ : ScatterDims ⟨2, ![B, V]⟩ ⟨2, ![N, 1]⟩ ⟨2, ![B, N]⟩).sKept := by
      show (0 : Fin 2) ∈ (List.finRange 2).filter (· ∉ [(1 : Fin 2)])
      decide
    unfold ScatterDims.window
    rw [dif_pos hp]
    rfl
  have hw1 : (⟨[0], [1], [1], 1, wf⟩ : ScatterDims ⟨2, ![B, V]⟩ ⟨2, ![N, 1]⟩ ⟨2, ![B, N]⟩).window j 1 = 0 := by
    have hn : (1 : Fin 2) ∉ (⟨[0], [1], [1], 1, wf⟩ : ScatterDims ⟨2, ![B, V]⟩ ⟨2, ![N, 1]⟩ ⟨2, ![B, N]⟩).sKept := by
      show (1 : Fin 2) ∉ (List.finRange 2).filter (· ∉ [(1 : Fin 2)])
      decide
    unfold ScatterDims.window
    rw [dif_neg hn]
  constructor
  · intro h
    have h0 := h 0
    have h1 := h 1
    rw [hs0, hw0] at h0
    rw [hs1, hw1] at h1
    refine ⟨by omega, by omega⟩
  · rintro ⟨h0, h1⟩
    have k0 : ((i 0).val : Int) = (⟨[0], [1], [1], 1, wf⟩ : ScatterDims ⟨2, ![B, V]⟩ ⟨2, ![N, 1]⟩ ⟨2, ![B, N]⟩).start j idx 0
        + (⟨[0], [1], [1], 1, wf⟩ : ScatterDims ⟨2, ![B, V]⟩ ⟨2, ![N, 1]⟩ ⟨2, ![B, N]⟩).window j 0 := by
      rw [hs0, hw0]; omega
    have k1 : ((i 1).val : Int) = (⟨[0], [1], [1], 1, wf⟩ : ScatterDims ⟨2, ![B, V]⟩ ⟨2, ![N, 1]⟩ ⟨2, ![B, N]⟩).start j idx 1
        + (⟨[0], [1], [1], 1, wf⟩ : ScatterDims ⟨2, ![B, V]⟩ ⟨2, ![N, 1]⟩ ⟨2, ![B, N]⟩).window j 1 := by
      rw [hs1, hw1]; omega
    intro a
    match a with
    | ⟨0, _⟩ => exact k0
    | ⟨1, _⟩ => exact k1

/-- The amount a scatter along rows adds to result element i: the sum, over the update positions (b, q), of the
    updates whose row b is i's row and whose index entry q, read as a signed integer, is i's column. -/
def rowSum {B V N w : Nat} (idx : IVec ⟨2, ![N, 1]⟩ w) (upd : (⟨2, ![B, N]⟩ : Shape).Idx → EReal)
    (i : (⟨2, ![B, V]⟩ : Shape).Idx) : EReal :=
  ∑ b : Fin B, ∑ q : Fin N,
    if (i 0).val = b.val ∧ ((i 1).val : Int) = (idx (ix2 q 0)).toInt then upd (ix2 b q) else 0

/-- An accumulating scatter along rows, read at one result element: the operand's element plus rowSum. -/
theorem hostScatterAdd_rows_apply {B V N w : Nat}
    (d : ScatterDims ⟨2, ![B, V]⟩ ⟨2, ![N, 1]⟩ ⟨2, ![B, N]⟩)
    (hu : d.updateWindowDims = [0]) (hi : d.insertedWindowDims = [1])
    (hs : d.scatterDimsToOperandDims = [1]) (hv : d.indexVectorDim = 1)
    (x : (⟨2, ![B, V]⟩ : Shape).Idx → EReal) (idx : IVec ⟨2, ![N, 1]⟩ w)
    (upd : (⟨2, ![B, N]⟩ : Shape).Idx → EReal) (i : (⟨2, ![B, V]⟩ : Shape).Idx) :
    Ideal.hostScatterAdd d x idx upd i = x i + rowSum idx upd i := by
  show x i + _ = x i + _
  congr 1
  unfold rowSum
  rw [Finset.sum_filter, sum_idx2]
  refine Finset.sum_congr rfl fun b _ => Finset.sum_congr rfl fun q _ => ?_
  exact if_congr (resultIdx?_rows d hu hi hs hv idx (ix2 b q) i) rfl rfl

/-- The long axis of extent 3N as N groups of three: (p, k) goes to 3p + k. -/
def interleave3 {N N3 : Nat} (h3 : N3 = 3 * N) : Fin N × Fin 3 ≃ Fin N3 where
  toFun x := ⟨3 * x.1.val + x.2.val, by omega⟩
  invFun q := (⟨q.val / 3, by omega⟩, ⟨q.val % 3, by omega⟩)
  left_inv x := by
    obtain ⟨p, k⟩ := x
    refine Prod.ext (Fin.ext ?_) (Fin.ext ?_)
    · show (3 * p.val + k.val) / 3 = p.val
      omega
    · show (3 * p.val + k.val) % 3 = k.val
      omega
  right_inv q := by
    refine Fin.ext ?_
    show 3 * (q.val / 3) + q.val % 3 = q.val
    omega

/-- The row sum of three interleaved index and update arrays is the sum of the three row sums. -/
theorem rowSum_interleave3 {B V N N3 w : Nat} (h3 : N3 = 3 * N)
    (I : IVec ⟨2, ![N3, 1]⟩ w) (U : (⟨2, ![B, N3]⟩ : Shape).Idx → EReal)
    (Ik : Fin 3 → IVec ⟨2, ![N, 1]⟩ w) (Uk : Fin 3 → (⟨2, ![B, N]⟩ : Shape).Idx → EReal)
    (hI : ∀ (p : Fin N) (k : Fin 3), I (ix2 (⟨3 * p.val + k.val, by omega⟩ : Fin N3) 0) = Ik k (ix2 p 0))
    (hU : ∀ (b : Fin B) (p : Fin N) (k : Fin 3),
      U (ix2 b (⟨3 * p.val + k.val, by omega⟩ : Fin N3)) = Uk k (ix2 b p))
    (i : (⟨2, ![B, V]⟩ : Shape).Idx) :
    rowSum I U i = rowSum (Ik 0) (Uk 0) i + rowSum (Ik 1) (Uk 1) i + rowSum (Ik 2) (Uk 2) i := by
  unfold rowSum
  simp only [← Finset.sum_add_distrib]
  refine Finset.sum_congr rfl fun b _ => ?_
  rw [← Equiv.sum_comp (interleave3 h3), Fintype.sum_prod_type]
  refine Finset.sum_congr rfl fun p _ => ?_
  rw [Fin.sum_univ_three]
  have hI' : ∀ k : Fin 3, I (ix2 (interleave3 h3 (p, k)) 0) = Ik k (ix2 p 0) := fun k => hI p k
  have hU' : ∀ k : Fin 3, U (ix2 b (interleave3 h3 (p, k))) = Uk k (ix2 b p) := fun k => hU b p k
  rw [hI' 0, hI' 1, hI' 2, hU' 0, hU' 1, hU' 2]

/-- ONE accumulating scatter along rows of three interleaved index and update arrays is the three scatters one after
    the other: position 3p + k of the long axis holds entry p of the k-th index array and column p of the k-th update
    array. Extended-real addition is commutative and associative, so nothing is asked of the values. -/
theorem hostScatterAdd_interleave3 {B V N N3 w : Nat} (h3 : N3 = 3 * N)
    (d1 : ScatterDims ⟨2, ![B, V]⟩ ⟨2, ![N, 1]⟩ ⟨2, ![B, N]⟩)
    (d3 : ScatterDims ⟨2, ![B, V]⟩ ⟨2, ![N3, 1]⟩ ⟨2, ![B, N3]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![N3, 1]⟩ w) (U : (⟨2, ![B, N3]⟩ : Shape).Idx → EReal)
    (Ik : Fin 3 → IVec ⟨2, ![N, 1]⟩ w) (Uk : Fin 3 → (⟨2, ![B, N]⟩ : Shape).Idx → EReal)
    (hI : ∀ (p : Fin N) (k : Fin 3), I (ix2 (⟨3 * p.val + k.val, by omega⟩ : Fin N3) 0) = Ik k (ix2 p 0))
    (hU : ∀ (b : Fin B) (p : Fin N) (k : Fin 3),
      U (ix2 b (⟨3 * p.val + k.val, by omega⟩ : Fin N3)) = Uk k (ix2 b p))
    (z : (⟨2, ![B, V]⟩ : Shape).Idx → EReal) :
    Ideal.hostScatterAdd d3 z I U =
      Ideal.hostScatterAdd d1 (Ideal.hostScatterAdd d1 (Ideal.hostScatterAdd d1 z (Ik 0) (Uk 0)) (Ik 1) (Uk 1))
        (Ik 2) (Uk 2) := by
  funext i
  rw [hostScatterAdd_rows_apply d3 hd3u hd3i hd3s hd3v, hostScatterAdd_rows_apply d1 hd1u hd1i hd1s hd1v,
    hostScatterAdd_rows_apply d1 hd1u hd1i hd1s hd1v, hostScatterAdd_rows_apply d1 hd1u hd1i hd1s hd1v,
    rowSum_interleave3 h3 I U Ik Uk hI hU i]
  simp only [add_assoc]

/-- The same with the three index arrays and the three update arrays named one by one: positions 3p, 3p + 1 and
    3p + 2 of the long axis hold entry p (column p) of the first, the second and the third. -/
theorem hostScatterAdd_interleave3_each {B V N N3 w : Nat} (h3 : N3 = 3 * N)
    (d1 : ScatterDims ⟨2, ![B, V]⟩ ⟨2, ![N, 1]⟩ ⟨2, ![B, N]⟩)
    (d3 : ScatterDims ⟨2, ![B, V]⟩ ⟨2, ![N3, 1]⟩ ⟨2, ![B, N3]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![N3, 1]⟩ w) (U : (⟨2, ![B, N3]⟩ : Shape).Idx → EReal)
    (I0 I1 I2 : IVec ⟨2, ![N, 1]⟩ w) (U0 U1 U2 : (⟨2, ![B, N]⟩ : Shape).Idx → EReal)
    (hI0 : ∀ p : Fin N, I (ix2 (⟨3 * p.val, by omega⟩ : Fin N3) 0) = I0 (ix2 p 0))
    (hI1 : ∀ p : Fin N, I (ix2 (⟨3 * p.val + 1, by omega⟩ : Fin N3) 0) = I1 (ix2 p 0))
    (hI2 : ∀ p : Fin N, I (ix2 (⟨3 * p.val + 2, by omega⟩ : Fin N3) 0) = I2 (ix2 p 0))
    (hU0 : ∀ (b : Fin B) (p : Fin N), U (ix2 b (⟨3 * p.val, by omega⟩ : Fin N3)) = U0 (ix2 b p))
    (hU1 : ∀ (b : Fin B) (p : Fin N), U (ix2 b (⟨3 * p.val + 1, by omega⟩ : Fin N3)) = U1 (ix2 b p))
    (hU2 : ∀ (b : Fin B) (p : Fin N), U (ix2 b (⟨3 * p.val + 2, by omega⟩ : Fin N3)) = U2 (ix2 b p))
    (z : (⟨2, ![B, V]⟩ : Shape).Idx → EReal) :
    Ideal.hostScatterAdd d3 z I U =
      Ideal.hostScatterAdd d1 (Ideal.hostScatterAdd d1 (Ideal.hostScatterAdd d1 z I0 U0) I1 U1) I2 U2 :=
  hostScatterAdd_interleave3 h3 d1 d3 hd1u hd1i hd1s hd1v hd3u hd3i hd3s hd3v I U ![I0, I1, I2] ![U0, U1, U2]
    (fun p k => match k with
      | ⟨0, _⟩ => hI0 p
      | ⟨1, _⟩ => hI1 p
      | ⟨2, _⟩ => hI2 p)
    (fun b p k => match k with
      | ⟨0, _⟩ => hU0 b p
      | ⟨1, _⟩ => hU1 b p
      | ⟨2, _⟩ => hU2 b p) z

/-- The interleaving theorem at the extents 8, 6890, 1048576 and 3145728 = 3 · 1048576, the three index arrays and
    the three update arrays given as families over k. -/
theorem hostScatterAdd_interleave3_lit {w : Nat}
    (d1 : ScatterDims ⟨2, ![8, 6890]⟩ ⟨2, ![1048576, 1]⟩ ⟨2, ![8, 1048576]⟩)
    (d3 : ScatterDims ⟨2, ![8, 6890]⟩ ⟨2, ![3145728, 1]⟩ ⟨2, ![8, 3145728]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![3145728, 1]⟩ w) (U : (⟨2, ![8, 3145728]⟩ : Shape).Idx → EReal)
    (Ik : Fin 3 → IVec ⟨2, ![1048576, 1]⟩ w) (Uk : Fin 3 → (⟨2, ![8, 1048576]⟩ : Shape).Idx → EReal)
    (hI : ∀ (p : Fin 1048576) (k : Fin 3),
      I (ix2 (⟨3 * p.val + k.val, by omega⟩ : Fin 3145728) 0) = Ik k (ix2 p 0))
    (hU : ∀ (b : Fin 8) (p : Fin 1048576) (k : Fin 3),
      U (ix2 b (⟨3 * p.val + k.val, by omega⟩ : Fin 3145728)) = Uk k (ix2 b p))
    (z : (⟨2, ![8, 6890]⟩ : Shape).Idx → EReal) :
    Ideal.hostScatterAdd d3 z I U =
      Ideal.hostScatterAdd d1 (Ideal.hostScatterAdd d1 (Ideal.hostScatterAdd d1 z (Ik 0) (Uk 0)) (Ik 1) (Uk 1))
        (Ik 2) (Uk 2) :=
  hostScatterAdd_interleave3 (by norm_num) d1 d3 hd1u hd1i hd1s hd1v hd3u hd3i hd3s hd3v I U Ik Uk hI hU z

/-- The interleaving theorem at the extents 8, 6890, 1048576 and 3145728 = 3 · 1048576, the three index arrays and
    the three update arrays named one by one. -/
theorem hostScatterAdd_interleave3_each_lit {w : Nat}
    (d1 : ScatterDims ⟨2, ![8, 6890]⟩ ⟨2, ![1048576, 1]⟩ ⟨2, ![8, 1048576]⟩)
    (d3 : ScatterDims ⟨2, ![8, 6890]⟩ ⟨2, ![3145728, 1]⟩ ⟨2, ![8, 3145728]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![3145728, 1]⟩ w) (U : (⟨2, ![8, 3145728]⟩ : Shape).Idx → EReal)
    (I0 I1 I2 : IVec ⟨2, ![1048576, 1]⟩ w) (U0 U1 U2 : (⟨2, ![8, 1048576]⟩ : Shape).Idx → EReal)
    (hI0 : ∀ p : Fin 1048576, I (ix2 (⟨3 * p.val, by omega⟩ : Fin 3145728) 0) = I0 (ix2 p 0))
    (hI1 : ∀ p : Fin 1048576, I (ix2 (⟨3 * p.val + 1, by omega⟩ : Fin 3145728) 0) = I1 (ix2 p 0))
    (hI2 : ∀ p : Fin 1048576, I (ix2 (⟨3 * p.val + 2, by omega⟩ : Fin 3145728) 0) = I2 (ix2 p 0))
    (hU0 : ∀ (b : Fin 8) (p : Fin 1048576), U (ix2 b (⟨3 * p.val, by omega⟩ : Fin 3145728)) = U0 (ix2 b p))
    (hU1 : ∀ (b : Fin 8) (p : Fin 1048576), U (ix2 b (⟨3 * p.val + 1, by omega⟩ : Fin 3145728)) = U1 (ix2 b p))
    (hU2 : ∀ (b : Fin 8) (p : Fin 1048576), U (ix2 b (⟨3 * p.val + 2, by omega⟩ : Fin 3145728)) = U2 (ix2 b p))
    (z : (⟨2, ![8, 6890]⟩ : Shape).Idx → EReal) :
    Ideal.hostScatterAdd d3 z I U =
      Ideal.hostScatterAdd d1 (Ideal.hostScatterAdd d1 (Ideal.hostScatterAdd d1 z I0 U0) I1 U1) I2 U2 :=
  hostScatterAdd_interleave3_each (by norm_num) d1 d3 hd1u hd1i hd1s hd1v hd3u hd3i hd3s hd3v I U I0 I1 I2 U0 U1 U2
    hI0 hI1 hI2 hU0 hU1 hU2 z

end Cert.Lib.ScatterSplit
-- ==== Proof.LibRowGather.lean ====
/-
  THE ROW GATHER READ AT AN INDEX. What `X[idx]` of a matrix `X : [N, C]` at an integer vector `idx : [E]`
  lowers to is `stablehlo.gather` with offset_dims `[1]`, collapsed_slice_dims `[0]`, start_index_map `[0]`,
  index_vector_dim `1` and slice_sizes `[1, C]` over the indices reshaped to `[E, 1]`: one whole row of the operand per
  start index. This file names those dimension numbers (`rowDims`) and proves the one fact a value proof needs
  (`gather_rows_apply`): result element `(t, q)` is the operand's element in column `q` of the row `idx[t, 0]`, that
  start index read as a signed integer and clamped into `[0, N − 1]`, as StableHLO's gather clamps every start index.
  On the row axis the slice has size 1, the axis is collapsed, and the start index map names it; on the column axis the
  start is 0 and the result's offset coordinate is the column. It follows `gather_take_apply` (the rank-1 operand) step by step.
-/
import Idealize.ShloMosaic.Lib.ValueIdx

noncomputable section

namespace Idealize.ShloMosaic.ValueIdx

open Idealize.ShloMosaic

section Rows
variable {α : Type}

/-- The row gather's dimension numbers for an operand `[N, C]`, start indices `[E, 1]` and result `[E, C]`; their
    conditions `wf` are decided on a program's literal shapes. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, q)`: column `q` of the operand's row `idx[t, 0]`, the start index read signed and
    clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (t : Fin E) (q : Fin C) :
    Host.gather (rowDims N E C wf) x idx (ix2 t q)
      = x (ix2 ⟨min (idx (ix2 t ⟨0, Nat.one_pos⟩)).toInt.toNat (N - 1), by omega⟩ q) := by
  unfold Host.gather
  congr 1
  funext a
  refine Fin.ext ?_
  show (rowDims N E C wf).start (ix2 t q) idx a + (rowDims N E C wf).batchCoord (ix2 t q) a
      + (rowDims N E C wf).offCoord (ix2 t q) a = _
  rw [GatherDims.batchCoord_eq_zero _ _ _ List.not_mem_nil]
  simp only [Nat.add_zero]
  match a with
  | ⟨0, _⟩ =>
    -- the row axis: collapsed, so no offset; named by the start index map, so the clamped start index
    show (rowDims N E C wf).start (ix2 t q) idx (0 : Fin 2) + (rowDims N E C wf).offCoord (ix2 t q) (0 : Fin 2)
      = min (idx (ix2 t ⟨0, Nat.one_pos⟩)).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 t q) ⟨List.idxOf (0 : Fin 2) (rowDims N E C wf).startIndexMap,
        List.idxOf_lt_length_iff.2 (List.mem_singleton.mpr rfl)⟩ = ix2 t ⟨0, Nat.one_pos⟩ := by
      funext b; refine Fin.ext ?_
      match b with
      | ⟨0, _⟩ => rfl
      | ⟨1, _⟩ => rfl
    rw [hsi]
    rfl
  | ⟨1, _⟩ =>
    -- the column axis: not in the start index map, so the start is 0; the offset is the result's column
    show (rowDims N E C wf).start (ix2 t q) idx (1 : Fin 2) + (rowDims N E C wf).offCoord (ix2 t q) (1 : Fin 2) = q.val
    unfold GatherDims.start
    rw [dif_neg (show (1 : Fin 2) ∉ (rowDims N E C wf).startIndexMap from
      fun h => absurd (congrArg Fin.val (List.mem_singleton.mp h)) Nat.one_ne_zero)]
    rw [Nat.zero_add]
    rfl

end Rows

end Idealize.ShloMosaic.ValueIdx

end
-- ==== Proof.LibSegmentSum.lean ====
/-
  A SEGMENT SUM READ AT AN INDEX (at the ideal instance).

  What jax.ops.segment_sum(T[row] * wt[:, None], seg, num_segments = V) lowers to is: a row gather of a table
  T : [E, C] at K start indices (one whole row per index, the index read signed and clamped into [0, E − 1]), an
  elementwise product with a [K, C] array that holds weight wt k on all of row k, and an accumulating scatter of the
  K rows into a [V, C] operand along axis 0: row k is added to the operand's row seg k, and dropped when seg k, read
  signed, is outside [0, V). The extended reals' addition is commutative and associative, so the result at (n, c) is
  the operand's element plus the sum, over the k whose segment index is n, of T[clamp (row k), c] · wt k — one column
  c of the table at a time, whatever C is.

  The statements: the landing condition of a scatter along axis 0 in coordinates (resultIdx?_axis0), that scatter read
  at one element (scatterAdd_axis0_apply), the sum named (segAcc) and the composite (segmentSum_apply).
-/
import Idealize.ShloMosaic.Lib.ValueIdx
import proofs.«124303_j39805756900005_2_alg».proof.Proof.LibScatterSplit
import proofs.«124303_j39805756900005_2_alg».proof.Proof.LibRowGather

noncomputable section

open scoped BigOperators

namespace Cert.Lib.SegmentSum

open Idealize.ShloMosaic Idealize.ShloMosaic.ValueIdx Cert.Lib.ScatterSplit

/-- A scatter along axis 0 (update window axis 1, inserted operand axis 0, the one start component going to operand
    axis 0, the index vector on axis 1 of a [K, 1] index array): update position (k, c) lands on result element
    (n, c') exactly when c' = c and n is entry k of the index array read as a signed integer. -/
theorem resultIdx?_axis0 {V K C w : Nat}
    (d : ScatterDims ⟨2, ![V, C]⟩ ⟨2, ![K, 1]⟩ ⟨2, ![K, C]⟩)
    (hu : d.updateWindowDims = [1]) (hi : d.insertedWindowDims = [0])
    (hs : d.scatterDimsToOperandDims = [0]) (hv : d.indexVectorDim = 1)
    (idx : IVec ⟨2, ![K, 1]⟩ w) (j : (⟨2, ![K, C]⟩ : Shape).Idx) (i : (⟨2, ![V, C]⟩ : Shape).Idx) :
    d.resultIdx? j idx = some i ↔
      ((i 0).val : Int) = (idx (ix2 (j 0) ⟨0, Nat.one_pos⟩)).toInt ∧ (i 1).val = (j 1).val := by
  obtain ⟨uw, iw, sd, iv, wf⟩ := d
  simp only at hu hi hs hv
  subst hu hi hs hv
  rw [resultIdx?_eq_some_iff]
  have hs0 : (⟨[1], [0], [0], 1, wf⟩ : ScatterDims ⟨2, ![V, C]⟩ ⟨2, ![K, 1]⟩ ⟨2, ![K, C]⟩).start j idx 0
      = (idx (ix2 (j 0) ⟨0, Nat.one_pos⟩)).toInt := by
    unfold ScatterDims.start
    rw [dif_pos (show (0 : Fin 2) ∈ [0] from List.mem_singleton.mpr rfl)]
    congr 2
    funext b; refine Fin.ext ?_
    match b with
    | ⟨0, _⟩ => rfl
    | ⟨1, _⟩ => rfl
  have hs1 : (⟨[1], [0], [0], 1, wf⟩ : ScatterDims ⟨2, ![V, C]⟩ ⟨2, ![K, 1]⟩ ⟨2, ![K, C]⟩).start j idx 1 = 0 := by
    unfold ScatterDims.start
    rw [dif_neg (show (1 : Fin 2) ∉ [0] by decide)]
  have hw0 : (⟨[1], [0], [0], 1, wf⟩ : ScatterDims ⟨2, ![V, C]⟩ ⟨2, ![K, 1]⟩ ⟨2, ![K, C]⟩).window j 0 = 0 := by
    have hn : (0 : Fin 2) ∉ (⟨[1], [0], [0], 1, wf⟩ : ScatterDims ⟨2, ![V, C]⟩ ⟨2, ![K, 1]⟩ ⟨2, ![K, C]⟩).sKept := by
      show (0 : Fin 2) ∉ (List.finRange 2).filter (· ∉ [(0 : Fin 2)])
      decide
    unfold ScatterDims.window
    rw [dif_neg hn]
  have hw1 : (⟨[1], [0], [0], 1, wf⟩ : ScatterDims ⟨2, ![V, C]⟩ ⟨2, ![K, 1]⟩ ⟨2, ![K, C]⟩).window j 1 = (j 1).val := by
    have hp : (1 : Fin 2) ∈ (⟨[1], [0], [0], 1, wf⟩ : ScatterDims ⟨2, ![V, C]⟩ ⟨2, ![K, 1]⟩ ⟨2, ![K, C]⟩).sKept := by
      show (1 : Fin 2) ∈ (List.finRange 2).filter (· ∉ [(0 : Fin 2)])
      decide
    unfold ScatterDims.window
    rw [dif_pos hp]
    rfl
  constructor
  · intro h
    have h0 := h 0
    have h1 := h 1
    rw [hs0, hw0] at h0
    rw [hs1, hw1] at h1
    refine ⟨by omega, by omega⟩
  · rintro ⟨h0, h1⟩
    have k0 : ((i 0).val : Int) = (⟨[1], [0], [0], 1, wf⟩ : ScatterDims ⟨2, ![V, C]⟩ ⟨2, ![K, 1]⟩ ⟨2, ![K, C]⟩).start j idx 0
        + (⟨[1], [0], [0], 1, wf⟩ : ScatterDims ⟨2, ![V, C]⟩ ⟨2, ![K, 1]⟩ ⟨2, ![K, C]⟩).window j 0 := by
      rw [hs0, hw0]; omega
    have k1 : ((i 1).val : Int) = (⟨[1], [0], [0], 1, wf⟩ : ScatterDims ⟨2, ![V, C]⟩ ⟨2, ![K, 1]⟩ ⟨2, ![K, C]⟩).start j idx 1
        + (⟨[1], [0], [0], 1, wf⟩ : ScatterDims ⟨2, ![V, C]⟩ ⟨2, ![K, 1]⟩ ⟨2, ![K, C]⟩).window j 1 := by
      rw [hs1, hw1]; omega
    intro a
    match a with
    | ⟨0, _⟩ => exact k0
    | ⟨1, _⟩ => exact k1

/-- An accumulating scatter along axis 0 read at (n, c): the operand's element plus the sum of column c of the update
    rows whose index entry, read as a signed integer, is n. -/
theorem scatterAdd_axis0_apply {V K C w : Nat}
    (d : ScatterDims ⟨2, ![V, C]⟩ ⟨2, ![K, 1]⟩ ⟨2, ![K, C]⟩)
    (hu : d.updateWindowDims = [1]) (hi : d.insertedWindowDims = [0])
    (hs : d.scatterDimsToOperandDims = [0]) (hv : d.indexVectorDim = 1)
    (x : (⟨2, ![V, C]⟩ : Shape).Idx → EReal) (idx : IVec ⟨2, ![K, 1]⟩ w)
    (upd : (⟨2, ![K, C]⟩ : Shape).Idx → EReal) (n : Fin V) (c : Fin C) :
    Ideal.hostScatterAdd d x idx upd (ix2 n c)
      = x (ix2 n c) + ∑ k : Fin K, if (n.val : Int) = (idx (ix2 k ⟨0, Nat.one_pos⟩)).toInt then upd (ix2 k c) else 0 := by
  show x (ix2 n c) + _ = x (ix2 n c) + _
  congr 1
  rw [Finset.sum_filter, sum_idx2]
  refine Finset.sum_congr rfl fun k _ => ?_
  rw [Finset.sum_eq_single c]
  · exact if_congr ((resultIdx?_axis0 d hu hi hs hv idx (ix2 k c) (ix2 n c)).trans
      ⟨fun h => h.1, fun h => ⟨h, rfl⟩⟩) rfl rfl
  · intro c' _ hne
    rw [if_neg]
    intro h
    exact hne (Fin.ext ((resultIdx?_axis0 d hu hi hs hv idx (ix2 k c') (ix2 n c)).mp h).2.symm)
  · intro h
    exact absurd (Finset.mem_univ c) h

/-- What a segment sum holds at segment n, for one column of the table given as a function col of the row: the start
    value z plus the sum, over the k whose segment entry read signed is n, of col at the row named by k's start index
    (read signed, clamped into [0, E − 1]) times the weight of k. -/
def segAcc {E K V w w' : Nat} (hE : 0 < E) (z : EReal) (s : Fin K → BitVec w) (r : Fin K → BitVec w')
    (wt : Fin K → EReal) (col : Fin E → EReal) (n : Fin V) : EReal :=
  z + ∑ k : Fin K, if (n.val : Int) = (s k).toInt then col ⟨min (r k).toInt.toNat (E - 1), by omega⟩ * wt k else 0

/-- THE SEGMENT SUM READ AT (n, c): the operand's element plus the sum, over the k whose segment entry read signed is
    n, of column c of the table's row (start index of k read signed and clamped into [0, E − 1]) times the weight
    of k. The index arrays are read through their one column (hseg, hrow), the weights through their rows (hW). -/
theorem segmentSum_apply {E K V C w w' : Nat} (hE : 0 < E)
    (d : ScatterDims ⟨2, ![V, C]⟩ ⟨2, ![K, 1]⟩ ⟨2, ![K, C]⟩)
    (hu : d.updateWindowDims = [1]) (hi : d.insertedWindowDims = [0])
    (hs : d.scatterDimsToOperandDims = [0]) (hv : d.indexVectorDim = 1)
    (wf : GatherDims.WF ⟨2, ![E, C]⟩ ⟨2, ![K, 1]⟩ ⟨2, ![K, C]⟩ [1] [0] [] [0] [] 1 ![1, C])
    (z : FVec Ideal ⟨2, ![V, C]⟩ .f32) (seg : IVec ⟨2, ![K, 1]⟩ w) (row : IVec ⟨2, ![K, 1]⟩ w')
    (T : FVec Ideal ⟨2, ![E, C]⟩ .f32) (W : FVec Ideal ⟨2, ![K, C]⟩ .f32)
    (s : Fin K → BitVec w) (r : Fin K → BitVec w') (wt : Fin K → EReal)
    (hseg : ∀ k, seg (ix2 k ⟨0, Nat.one_pos⟩) = s k) (hrow : ∀ k, row (ix2 k ⟨0, Nat.one_pos⟩) = r k)
    (hW : ∀ k c, W (ix2 k c) = wt k) (n : Fin V) (c : Fin C) :
    Host.scatterAdd (F := Ideal) d z seg (mulf (Host.gather (rowDims E K C wf) T row) W) (ix2 n c)
      = segAcc hE (z (ix2 n c)) s r wt (fun e => T (ix2 e c)) n := by
  unfold segAcc
  refine (scatterAdd_axis0_apply d hu hi hs hv z seg _ n c).trans ?_
  refine congrArg (z (ix2 n c) + ·) (Finset.sum_congr rfl fun k _ => ?_)
  rw [hseg k, mulf_apply, gather_rows_apply hE wf T row k c, hW k c]
  simp only [hrow k]

end Cert.Lib.SegmentSum

end
-- ==== Proof.LibBroadcastInDim.lean ====
/-
  `broadcast_in_dim` read at an index, for four shapes a host program takes a row statistic or a bias through
  (the library has the fifth, a scalar spread over any shape): a vector written as a column; a column repeated along every column; a vector written
  as a one-row matrix; a one-row matrix repeated down every row. In each the entry of the result at an index is the
  operand's entry at the coordinates the operand has.
-/
import Idealize.ShloMosaic.Lib.Pipeline.Value
import Idealize.ShloMosaic.Lib.ValueIdx

namespace Idealize.ShloMosaic.ValueIdx

variable {α : Type}

/-- An `[a]` vector written as the column `[a, 1]` (its axis sent to axis 0) reads, at `(p, u)`, the vector at `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- An `[a, 1]` column repeated along the columns of `[a, b]` (axes kept in place) reads, at `(p, c)`, the column at row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => rfl

/-- A `[b]` vector written as the one-row matrix `[1, b]` (its axis sent to axis 1) reads, at `(u, c)`, the vector at `c`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A `[1, b]` one-row matrix repeated down the rows of `[a, b]` reads, at `(p, c)`, the row at column `c`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) :=
  broadcastInDim_apply _ h x (ix2 p c) (ix2 (0 : Fin 1) c) fun ax => by
    match ax with
    | ⟨0, _⟩ => rfl
    | ⟨1, _⟩ =>
      show c.val = if b = 1 then 0 else c.val
      split
      · have := c.isLt; omega
      · rfl

end Idealize.ShloMosaic.ValueIdx
-- ==== Proof.LibGraphHostOps.lean ====
/-
  Three facts about the host operations around the aggregation, read one entry at a time.

  A gather of single entries of a vector x : [N] at K start indices given as a [K, 1] array: entry e of the result is
  x at the e-th start index, read as a signed integer and clamped into [0, N − 1].

  The index wrap applied before a gather (a negative index has the extent added): where an index word read as a
  signed integer is a natural number, the wrap leaves it, so an index that names a node is gathered at that node.

  The scale 1 / √deg where deg > 0 and 0 elsewhere: whatever extended real deg is, the scale is nonnegative and is not
  +∞ (a positive real has a positive real root; +∞ goes to 0).
-/
import Idealize.ShloMosaic.Lib.ValueIdx
import Idealize.ShloMosaic.Lib.Pipeline.Value
import Idealize.ShloMosaic.PureOps.Ideal.Laws

noncomputable section

namespace Cert.HostOps

open Idealize.ShloMosaic Idealize.ShloMosaic.ValueIdx

/-- The dimension numbers of a gather of single entries of an [N] vector at [K, 1] start indices. -/
abbrev vecDims (N K : Nat) (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- The vector gather read at e: the operand at the start index of e, read signed and clamped into [0, N − 1]. -/
theorem gather_vec_apply {α : Type} {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (e : Fin K) :
    Host.gather (vecDims N K wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecDims N K wf).start (ix1 e) idx 0 + (vecDims N K wf).batchCoord (ix1 e) 0
      + (vecDims N K wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N K wf).startIndexMap from List.mem_singleton.mpr rfl)]
  have hsi : (vecDims N K wf).siIdx (ix1 e) ⟨List.idxOf (0 : Fin 1) (vecDims N K wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- Where an index word, read signed, is a natural number, the negative-index wrap leaves it. -/
theorem wrap_of_nat (w n : BitVec 32) (i : Nat) (h : (i : Int) = w.toInt) :
    Scalar.select (IntOp.cmpi .slt w 0#32) (IntOp.addi w n) w = w := by
  have hs : w.slt 0#32 = false := by
    have h0 : (0#32 : BitVec 32).toInt = 0 := by decide
    simp only [BitVec.slt, h0, decide_eq_false_iff_not, not_lt]
    omega
  unfold Scalar.select IntOp.cmpi
  simp only [hs]
  rfl

/-- The reciprocal root of a positive extended real is nonnegative and not +∞. -/
theorem rsqrt_nonneg_ne_top {x : EReal} (h : 0 < x) : 0 ≤ Ideal.rsqrt x ∧ Ideal.rsqrt x ≠ ⊤ := by
  induction x using EReal.rec with
  | bot => exact absurd h (by simp)
  | top => rw [Ideal.rsqrt_top]; exact ⟨le_refl _, EReal.zero_ne_top⟩
  | coe r =>
    have hr : 0 < r := by exact_mod_cast h
    rw [Ideal.rsqrt_coe, if_neg (not_lt.mpr hr.le), if_neg hr.ne']
    exact ⟨by exact_mod_cast (inv_nonneg.mpr (Real.sqrt_nonneg r)), EReal.coe_ne_top _⟩

/-- The scale "reciprocal root where positive, zero elsewhere" is nonnegative and not +∞ at every extended real. -/
theorem scale_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  unfold Scalar.select Ideal.cmp
  by_cases h : (0 : EReal) < x
  · have hb : BitVec.ofBool (decide ((0 : EReal) < x)) = 1 := by simp [h]
    rw [if_pos hb]
    exact rsqrt_nonneg_ne_top h
  · have hb : ¬ BitVec.ofBool (decide ((0 : EReal) < x)) = 1 := by simp [h]
    rw [if_neg hb]
    exact ⟨le_refl _, EReal.zero_ne_top⟩

end Cert.HostOps

end
-- ==== Proof.LibAggregationLaw.lean ====
/-
  Two layers of normalized graph aggregation, with the normalization folded into per-node scales.

  A graph on N nodes is given by K directed edges; edge e carries a source node g e, and lands on node i when the
  relation L i e holds (an edge whose destination is not a node lands nowhere). Each node j has a scale d j, a
  nonnegative extended real other than +∞. The reference weighs edge e by d (g e) · d (g' e), where g' e is the
  edge's destination read as a node, so that g' e = i whenever e lands on i, and sums the weighted messages landing on
  each node. The kernel scales every node's features by d once before the edges read them and scales the sum by d i
  once after: for the terms landing on i,

      (Σ_e y (g e) · d (g e)) · d i = Σ_e y (g e) · (d (g e) · d i),

  which on the extended reals asks only that d i be nonnegative and not +∞ (multiplication by such a number
  distributes over every sum, infinite terms included); nothing is asked of y. Two layers, a bias and a
  rectification between them, apply the law twice.
-/
import Mathlib.Data.EReal.Operations
import Idealize.ShloMosaic.PureOps.Ideal

noncomputable section

namespace Cert.Law

/-- Multiplication by a nonnegative extended real other than +∞ distributes over a finite sum. -/
theorem sum_mul_of_nonneg {ι : Type} (s : Finset ι) (f : ι → EReal) {r : EReal} (h0 : 0 ≤ r) (ht : r ≠ ⊤) :
    (∑ e ∈ s, f e) * r = ∑ e ∈ s, f e * r := by
  classical
  induction s using Finset.induction_on with
  | empty => simp
  | insert a s ha ih =>
    rw [Finset.sum_insert ha, Finset.sum_insert ha, EReal.right_distrib_of_nonneg_of_ne_top h0 ht, ih]

section
variable {K N A B C : ℕ}

/-- What lands on node i: zero plus the sum of f over the edges landing on i. -/
def landed (L : Fin N → Fin K → Prop) [∀ i e, Decidable (L i e)] (f : Fin K → EReal) (i : Fin N) : EReal :=
  0 + ∑ e : Fin K, if L i e then f e else 0

/-- The aggregation law: scaling the sources' features by d before the edges read them and the sum by d i after is
    weighing every landing edge by d (source) · d (destination). -/
theorem landed_scale (L : Fin N → Fin K → Prop) [∀ i e, Decidable (L i e)] (g g' : Fin K → Fin N)
    (d : Fin N → EReal) (y : Fin N → EReal) (i : Fin N) (h0 : 0 ≤ d i) (ht : d i ≠ ⊤)
    (hg' : ∀ e, L i e → g' e = i) :
    landed L (fun e => y (g e) * d (g e)) i * d i = landed L (fun e => y (g e) * (d (g e) * d (g' e))) i := by
  unfold landed
  rw [zero_add, zero_add, sum_mul_of_nonneg _ _ h0 ht]
  refine Finset.sum_congr rfl fun e _ => ?_
  by_cases h : L i e
  · rw [if_pos h, if_pos h]
    dsimp only
    rw [hg' e h, mul_assoc]
  · rw [if_neg h, if_neg h, zero_mul]

/-- A dense product: row j of x against column k of W. -/
def dense (x : Fin N → Fin A → EReal) (W : Fin A → Fin B → EReal) (j : Fin N) (k : Fin B) : EReal :=
  ∑ a : Fin A, x j a * W a k

/-- The kernel's first aggregate: the dense product scaled by d at the source, summed over the landing edges. -/
def kAgg1 (L : Fin N → Fin K → Prop) [∀ i e, Decidable (L i e)] (g : Fin K → Fin N) (d : Fin N → EReal)
    (x : Fin N → Fin A → EReal) (W1 : Fin A → Fin B → EReal) (j : Fin N) (k : Fin B) : EReal :=
  landed L (fun e => dense x W1 (g e) k * d (g e)) j

/-- The kernel's second features: the rectified, biased, rescaled first aggregate through the second dense product,
    scaled by d. -/
def kFeat2 (L : Fin N → Fin K → Prop) [∀ i e, Decidable (L i e)] (g : Fin K → Fin N) (d : Fin N → EReal)
    (x : Fin N → Fin A → EReal) (W1 : Fin A → Fin B → EReal) (b1 : Fin B → EReal) (W2 : Fin B → Fin C → EReal)
    (j : Fin N) (c : Fin C) : EReal :=
  (∑ k : Fin B, max (kAgg1 L g d x W1 j k * d j + b1 k) 0 * W2 k c) * d j

/-- The kernel's result at (p, q). -/
def kOut (L : Fin N → Fin K → Prop) [∀ i e, Decidable (L i e)] (g : Fin K → Fin N) (d : Fin N → EReal)
    (x : Fin N → Fin A → EReal) (W1 : Fin A → Fin B → EReal) (b1 : Fin B → EReal) (W2 : Fin B → Fin C → EReal)
    (b2 : Fin C → EReal) (p : Fin N) (q : Fin C) : EReal :=
  landed L (fun e => kFeat2 L g d x W1 b1 W2 (g e) q) p * d p + b2 q

/-- The reference's first layer before rectification. -/
def rLayer1 (L : Fin N → Fin K → Prop) [∀ i e, Decidable (L i e)] (g g' : Fin K → Fin N) (d : Fin N → EReal)
    (x : Fin N → Fin A → EReal) (W1 : Fin A → Fin B → EReal) (b1 : Fin B → EReal) (j : Fin N) (k : Fin B) : EReal :=
  landed L (fun e => dense x W1 (g e) k * (d (g e) * d (g' e))) j + b1 k

/-- The reference's second dense product of the rectified first layer. -/
def rFeat2 (L : Fin N → Fin K → Prop) [∀ i e, Decidable (L i e)] (g g' : Fin K → Fin N) (d : Fin N → EReal)
    (x : Fin N → Fin A → EReal) (W1 : Fin A → Fin B → EReal) (b1 : Fin B → EReal) (W2 : Fin B → Fin C → EReal)
    (j : Fin N) (c : Fin C) : EReal :=
  ∑ k : Fin B, max (rLayer1 L g g' d x W1 b1 j k) 0 * W2 k c

/-- The reference's result at (p, q). -/
def rOut (L : Fin N → Fin K → Prop) [∀ i e, Decidable (L i e)] (g g' : Fin K → Fin N) (d : Fin N → EReal)
    (x : Fin N → Fin A → EReal) (W1 : Fin A → Fin B → EReal) (b1 : Fin B → EReal) (W2 : Fin B → Fin C → EReal)
    (b2 : Fin C → EReal) (p : Fin N) (q : Fin C) : EReal :=
  landed L (fun e => rFeat2 L g g' d x W1 b1 W2 (g e) q * (d (g e) * d (g' e))) p + b2 q

/-- The two programs' results agree, entry by entry: the aggregation law at each layer. -/
theorem kOut_eq_rOut (L : Fin N → Fin K → Prop) [∀ i e, Decidable (L i e)] (g g' : Fin K → Fin N)
    (hg' : ∀ i e, L i e → g' e = i) (d : Fin N → EReal) (hd : ∀ j, 0 ≤ d j ∧ d j ≠ ⊤)
    (x : Fin N → Fin A → EReal) (W1 : Fin A → Fin B → EReal) (b1 : Fin B → EReal) (W2 : Fin B → Fin C → EReal)
    (b2 : Fin C → EReal) (p : Fin N) (q : Fin C) :
    kOut L g d x W1 b1 W2 b2 p q = rOut L g g' d x W1 b1 W2 b2 p q := by
  have h1 : ∀ j k, kAgg1 L g d x W1 j k * d j + b1 k = rLayer1 L g g' d x W1 b1 j k := fun j k => by
    unfold kAgg1 rLayer1
    rw [landed_scale L g g' d (fun n => dense x W1 n k) j (hd j).1 (hd j).2 (hg' j)]
  have h2 : ∀ j c, kFeat2 L g d x W1 b1 W2 j c = rFeat2 L g g' d x W1 b1 W2 j c * d j := fun j c => by
    unfold kFeat2 rFeat2
    simp only [h1]
  unfold kOut rOut
  simp only [h2]
  rw [landed_scale L g g' d (fun n => rFeat2 L g g' d x W1 b1 W2 n q) p (hd p).1 (hd p).2 (hg' p)]

end

end Cert.Law

end
-- ==== Proof.LibGraphStages.lean ====
/-
  The graph's edges read off the index arrays, and one aggregation read at an entry.

  The destinations of the K edges are the one column of a [K, 1] array of 32-bit words. Edge e lands on node i (of N)
  when that word, read as a signed integer, is i: an accumulating scatter adds update row e to operand row i exactly
  then, and drops a row whose word is negative or at least N. The node a gather reads for edge e is the edge's start
  word read as a signed integer and clamped into [0, N − 1].

  With these two readings an accumulating scatter into zeros of gathered rows, read at (n, c), is the sum over the
  edges landing on n of column c of the gathered rows (times the edge's weight, when the rows are weighted first);
  a product of two gathered vectors reads entry by entry; a bias written as a row and repeated down the rows reads its
  entry at the column; and an edge landing on node i has, as its wrapped destination, node i.
-/
import Idealize.ShloMosaic.Lib.ValueIdx
import Idealize.ShloMosaic.Lib.Pipeline.Value
import Idealize.ShloMosaic.Lib.IdealHost
import Idealize.ShloMosaic.PureOps.Ideal.Laws
import proofs.«124303_j39805756900005_2_alg».proof.Proof.LibSegmentSum
import proofs.«124303_j39805756900005_2_alg».proof.Proof.LibBroadcastInDim
import proofs.«124303_j39805756900005_2_alg».proof.Proof.LibGraphHostOps
import proofs.«124303_j39805756900005_2_alg».proof.Proof.LibAggregationLaw

noncomputable section

namespace Cert.Graph

open Idealize.ShloMosaic Idealize.ShloMosaic.ValueIdx Cert.Lib.SegmentSum Cert.HostOps Cert.Law

variable {K N : Nat}

/-- Edge e lands on node i: its destination word, read signed, is i. -/
abbrev lands (tcol : IVec ⟨2, ![K, 1]⟩ 32) (i : Fin N) (e : Fin K) : Prop :=
  (i.val : Int) = (tcol (ix2 e ⟨0, Nat.one_pos⟩)).toInt

/-- The node a gather reads for edge e: its start word read signed, clamped into [0, N − 1]. -/
def node (hN : 0 < N) (col : IVec ⟨2, ![K, 1]⟩ 32) (e : Fin K) : Fin N :=
  ⟨min (col (ix2 e ⟨0, Nat.one_pos⟩)).toInt.toNat (N - 1), by omega⟩

/-- An accumulating scatter along axis 0 into an operand that is 0 at (n, c), read there: what lands on n of
    column c of the updates. -/
theorem scatter_landed {C : Nat} (d : ScatterDims ⟨2, ![N, C]⟩ ⟨2, ![K, 1]⟩ ⟨2, ![K, C]⟩)
    (hu : d.updateWindowDims = [1]) (hi : d.insertedWindowDims = [0])
    (hs : d.scatterDimsToOperandDims = [0]) (hv : d.indexVectorDim = 1)
    (z : (⟨2, ![N, C]⟩ : Shape).Idx → EReal) (tcol : IVec ⟨2, ![K, 1]⟩ 32)
    (upd : (⟨2, ![K, C]⟩ : Shape).Idx → EReal) (n : Fin N) (c : Fin C) (hz : z (ix2 n c) = 0) :
    Ideal.hostScatterAdd d z tcol upd (ix2 n c) = landed (lands tcol) (fun e => upd (ix2 e c)) n := by
  rw [scatterAdd_axis0_apply d hu hi hs hv z tcol upd n c, hz]
  rfl

/-- The zero array a scatter accumulates into reads 0 everywhere. -/
theorem zeros_apply {T : Shape} (hz : (⟨0, ![]⟩ : Shape).BroadcastsInDim T ![]) (j : T.Idx) :
    broadcastInDim T ![] hz (constant (F := Ideal) ⟨0, ![]⟩ .f32 0x00000000#32) j = 0 := by
  rw [broadcastInDim_scalar_apply, constant_apply, Ideal.ofBits_zero_f32]

/-- The reference's aggregation at (n, c): gathered rows, each times its edge's weight (a [K] vector written as a
    column and repeated along the columns), scattered into zeros. -/
theorem weighted_stage {C : Nat} (hN : 0 < N) (d : ScatterDims ⟨2, ![N, C]⟩ ⟨2, ![K, 1]⟩ ⟨2, ![K, C]⟩)
    (hu : d.updateWindowDims = [1]) (hi : d.insertedWindowDims = [0])
    (hs : d.scatterDimsToOperandDims = [0]) (hv : d.indexVectorDim = 1)
    (wf : GatherDims.WF ⟨2, ![N, C]⟩ ⟨2, ![K, 1]⟩ ⟨2, ![K, C]⟩ [1] [0] [] [0] [] 1 ![1, C])
    (hz : (⟨0, ![]⟩ : Shape).BroadcastsInDim ⟨2, ![N, C]⟩ ![])
    (h1 : (⟨1, ![K]⟩ : Shape).BroadcastsInDim ⟨2, ![K, 1]⟩ (![0] : Fin 1 → Fin 2))
    (h2 : (⟨2, ![K, 1]⟩ : Shape).BroadcastsInDim ⟨2, ![K, C]⟩ (![0, 1] : Fin 2 → Fin 2))
    (tcol scol : IVec ⟨2, ![K, 1]⟩ 32) (T : FVec Ideal ⟨2, ![N, C]⟩ .f32) (wt : FVec Ideal ⟨1, ![K]⟩ .f32)
    (n : Fin N) (c : Fin C) :
    Host.scatterAdd (F := Ideal) d (broadcastInDim ⟨2, ![N, C]⟩ ![] hz (constant (F := Ideal) ⟨0, ![]⟩ .f32 0x00000000#32)) tcol
        (mulf (Host.gather (rowDims N K C wf) T scol)
          (broadcastInDim ⟨2, ![K, C]⟩ ![0, 1] h2 (broadcastInDim ⟨2, ![K, 1]⟩ ![0] h1 wt))) (ix2 n c)
      = landed (lands tcol) (fun e => T (ix2 (node hN scol e) c) * wt (ix1 e)) n := by
  refine (scatter_landed d hu hi hs hv _ tcol _ n c (zeros_apply hz _)).trans ?_
  unfold landed
  refine congrArg (0 + ·) (Finset.sum_congr rfl fun e _ => ?_)
  dsimp only
  rw [mulf_apply, gather_rows_apply hN wf T scol e c, broadcastInDim_a1_ab_apply, broadcastInDim_a_a1_apply]
  rfl

/-- The kernel's aggregation at (n, c): gathered rows (of an array kept in a narrower float format, widened after
    the gather) scattered into zeros. -/
theorem plain_stage {C : Nat} {φ : FTy} (hN : 0 < N) (d : ScatterDims ⟨2, ![N, C]⟩ ⟨2, ![K, 1]⟩ ⟨2, ![K, C]⟩)
    (hu : d.updateWindowDims = [1]) (hi : d.insertedWindowDims = [0])
    (hs : d.scatterDimsToOperandDims = [0]) (hv : d.indexVectorDim = 1)
    (wf : GatherDims.WF ⟨2, ![N, C]⟩ ⟨2, ![K, 1]⟩ ⟨2, ![K, C]⟩ [1] [0] [] [0] [] 1 ![1, C])
    (hz : (⟨0, ![]⟩ : Shape).BroadcastsInDim ⟨2, ![N, C]⟩ ![])
    (tcol scol : IVec ⟨2, ![K, 1]⟩ 32) (T : FVec Ideal ⟨2, ![N, C]⟩ φ) (hb : φ.bits < FTy.f32.bits)
    (n : Fin N) (c : Fin C) :
    Host.scatterAdd (F := Ideal) d (broadcastInDim ⟨2, ![N, C]⟩ ![] hz (constant (F := Ideal) ⟨0, ![]⟩ .f32 0x00000000#32)) tcol
        (extf .f32 (Host.gather (rowDims N K C wf) T scol) hb) (ix2 n c)
      = landed (lands tcol) (fun e => T (ix2 (node hN scol e) c)) n := by
  refine (scatter_landed d hu hi hs hv _ tcol _ n c (zeros_apply hz _)).trans ?_
  unfold landed
  refine congrArg (0 + ·) (Finset.sum_congr rfl fun e _ => ?_)
  dsimp only
  rw [extf_apply, gather_rows_apply hN wf T scol e c]
  rfl

/-- The edge weights: the product of two gathers of one vector, at edge e. -/
theorem norm_stage (hN : 0 < N) (wf1 : GatherDims.WF ⟨1, ![N]⟩ ⟨2, ![K, 1]⟩ ⟨1, ![K]⟩ [] [0] [] [0] [] 1 ![1])
    (dv : FVec Ideal ⟨1, ![N]⟩ .f32) (scol twcol : IVec ⟨2, ![K, 1]⟩ 32) (e : Fin K) :
    mulf (Host.gather (vecDims N K wf1) dv scol) (Host.gather (vecDims N K wf1) dv twcol) (ix1 e)
      = dv (ix1 (node hN scol e)) * dv (ix1 (node hN twcol e)) := by
  rw [mulf_apply, gather_vec_apply hN wf1 dv scol e, gather_vec_apply hN wf1 dv twcol e]
  rfl

/-- A bias vector written as a one-row matrix and repeated down the rows reads, at (n, c), its entry c. -/
theorem bias_apply {C : Nat} {α : Type}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (n : Fin N) (c : Fin C) :
    broadcastInDim ⟨2, ![N, C]⟩ ![0, 1] h2 (broadcastInDim ⟨2, ![1, C]⟩ ![1] h1 b) (ix2 n c) = b (ix1 c) := by
  rw [broadcastInDim_1b_ab_apply, broadcastInDim_b_1b_apply]

/-- An edge that lands on node i has node i as its wrapped destination: the word is a natural number below N, so the
    negative-index wrap leaves it and the clamp does too. -/
theorem wrapped_dest (hN : 0 < N) (hs : (⟨0, ![]⟩ : Shape).BroadcastsInDim ⟨1, ![K]⟩ ![])
    (h1 : (⟨1, ![K]⟩ : Shape).BroadcastsInDim ⟨2, ![K, 1]⟩ (![0] : Fin 1 → Fin 2))
    (t : IVec ⟨1, ![K]⟩ 32) (nw : BitVec 32) (i : Fin N) (e : Fin K)
    (h : lands (broadcastInDim ⟨2, ![K, 1]⟩ ![0] h1 t) i e) :
    node hN (broadcastInDim ⟨2, ![K, 1]⟩ ![0] h1
      (select (cmpi .slt t (broadcastInDim ⟨1, ![K]⟩ ![] hs (constantI ⟨0, ![]⟩ 32 0#32)))
        (addi t (broadcastInDim ⟨1, ![K]⟩ ![] hs (constantI ⟨0, ![]⟩ 32 nw))) t)) e = i := by
  have h' : (i.val : Int) = (t (ix1 e)).toInt := by
    have := h
    unfold lands at this
    rwa [broadcastInDim_a_a1_apply] at this
  refine Fin.ext ?_
  unfold node
  dsimp only
  rw [broadcastInDim_a_a1_apply, select_apply]
  have hw : Scalar.select (cmpi .slt t (broadcastInDim ⟨1, ![K]⟩ ![] hs (constantI ⟨0, ![]⟩ 32 0#32)) (ix1 e))
      (addi t (broadcastInDim ⟨1, ![K]⟩ ![] hs (constantI ⟨0, ![]⟩ 32 nw)) (ix1 e)) (t (ix1 e)) = t (ix1 e) := by
    show Scalar.select (IntOp.cmpi .slt (t (ix1 e)) (broadcastInDim ⟨1, ![K]⟩ ![] hs (constantI ⟨0, ![]⟩ 32 0#32) (ix1 e)))
      (IntOp.addi (t (ix1 e)) (broadcastInDim ⟨1, ![K]⟩ ![] hs (constantI ⟨0, ![]⟩ 32 nw) (ix1 e))) (t (ix1 e)) = t (ix1 e)
    rw [broadcastInDim_scalar_apply, broadcastInDim_scalar_apply]
    exact wrap_of_nat (t (ix1 e)) nw i.val h'
  rw [hw, ← h']
  have := i.isLt
  simp only [Int.toNat_natCast]
  omega

end Cert.Graph

end
-- ==== Proof.LibPlainStage.lean ====
/-
  An aggregation of gathered rows, read at an entry.

  Rows of an [N, C] array are gathered at the edges' start nodes and summed, by an accumulating scatter into zeros,
  into the edges' destination nodes. Read at (n, c), the result is the sum over the edges landing on n of column c
  of the row each such edge reads — the unweighted companion of the weighted aggregation in the graph-stages module,
  for an operand already in the single float format.
-/
import proofs.«124303_j39805756900005_2_alg».proof.Proof.LibGraphStages

noncomputable section

namespace Cert.Graph

open Idealize.ShloMosaic Idealize.ShloMosaic.ValueIdx Cert.Lib.SegmentSum Cert.HostOps Cert.Law

variable {K N : Nat}

/-- Gathered rows scattered into zeros, at (n, c): what lands on n of column c of the rows the edges read. -/
theorem gathered_stage {C : Nat} (hN : 0 < N) (d : ScatterDims ⟨2, ![N, C]⟩ ⟨2, ![K, 1]⟩ ⟨2, ![K, C]⟩)
    (hu : d.updateWindowDims = [1]) (hi : d.insertedWindowDims = [0])
    (hs : d.scatterDimsToOperandDims = [0]) (hv : d.indexVectorDim = 1)
    (wf : GatherDims.WF ⟨2, ![N, C]⟩ ⟨2, ![K, 1]⟩ ⟨2, ![K, C]⟩ [1] [0] [] [0] [] 1 ![1, C])
    (hz : (⟨0, ![]⟩ : Shape).BroadcastsInDim ⟨2, ![N, C]⟩ ![])
    (tcol scol : IVec ⟨2, ![K, 1]⟩ 32) (T : FVec Ideal ⟨2, ![N, C]⟩ .f32) (n : Fin N) (c : Fin C) :
    Host.scatterAdd (F := Ideal) d (broadcastInDim ⟨2, ![N, C]⟩ ![] hz (constant (F := Ideal) ⟨0, ![]⟩ .f32 0x00000000#32)) tcol
        (Host.gather (rowDims N K C wf) T scol) (ix2 n c)
      = landed (lands tcol) (fun e => T (ix2 (node hN scol e) c)) n := by
  refine (scatter_landed d hu hi hs hv _ tcol _ n c (zeros_apply hz _)).trans ?_
  unfold landed
  refine congrArg (0 + ·) (Finset.sum_congr rfl fun e _ => ?_)
  dsimp only
  rw [gather_rows_apply hN wf T scol e c]
  rfl

end Cert.Graph

end
-- ==== Proof.GcnLaw.lean ====
/-
  One layer of normalized graph aggregation, with the normalization folded into per-node scales, when the
  features pass through a dense product before the edges read them.

  Node j has features y j (a row of A numbers) and a scale d j, a nonnegative extended real other than +∞. A dense
  product sends row y j to the number Σ_k y j k · w k (one output column, weights w). The kernel scales the row
  first: Σ_k (y j k · d j) · w k. Multiplication by such a d j distributes over every finite sum of extended reals, so
  this is (Σ_k y j k · w k) · d j, the product's entry scaled afterwards. With that, summing over the edges that land
  on node i and scaling the sum by d i once is weighing every landing edge by d (source) · d (destination): the
  aggregation law of the library module, applied to the dense product's entries.

  The scale itself is 1 / √(max deg 1) where deg > 0 and 0 elsewhere: whatever extended real deg is, max deg 1 is
  positive, so its reciprocal root is a nonnegative number other than +∞.
-/
import proofs.«124303_j39805756900005_2_alg».proof.Proof.LibAggregationLaw
import proofs.«124303_j39805756900005_2_alg».proof.Proof.LibGraphHostOps
import Idealize.ShloMosaic.Lib.IdealHost

noncomputable section

namespace Cert.GcnLaw

open Cert.Law Cert.HostOps Idealize.ShloMosaic

/-- A row scaled before a dense product is the product's entry scaled after, for a nonnegative scale other than +∞. -/
theorem scaled_row {A : ℕ} (h w : Fin A → EReal) {r : EReal} (h0 : 0 ≤ r) (ht : r ≠ ⊤) :
    ∑ k : Fin A, (h k * r) * w k = (∑ k : Fin A, h k * w k) * r := by
  rw [sum_mul_of_nonneg _ _ h0 ht]
  refine Finset.sum_congr rfl fun k _ => ?_
  rw [mul_right_comm]

/-- One layer, at node i and one output column: the kernel's "scale the rows, multiply, gather, sum what lands, scale
    the sum" is the reference's "multiply, gather, weigh each edge by both scales, sum what lands". -/
theorem layer_law {K N A : ℕ} (L : Fin N → Fin K → Prop) [∀ i e, Decidable (L i e)] (g g' : Fin K → Fin N)
    (d : Fin N → EReal) (hd : ∀ j, 0 ≤ d j ∧ d j ≠ ⊤) (y : Fin N → Fin A → EReal) (w : Fin A → EReal) (i : Fin N)
    (hg' : ∀ e, L i e → g' e = i) :
    landed L (fun e => ∑ k : Fin A, (y (g e) k * d (g e)) * w k) i * d i
      = landed L (fun e => (∑ k : Fin A, y (g e) k * w k) * (d (g e) * d (g' e))) i := by
  have h := landed_scale L g g' d (fun n => ∑ k : Fin A, y n k * w k) i (hd i).1 (hd i).2 hg'
  refine Eq.trans ?_ h
  refine congrArg (fun f => landed L f i * d i) (funext fun e => ?_)
  exact scaled_row _ _ (hd (g e)).1 (hd (g e)).2

/-- The scale "reciprocal root of max deg 1 where deg is positive, zero elsewhere" is nonnegative and not +∞ at
    every extended real deg. -/
theorem scale_nonneg_ne_top (x : EReal) :
    0 ≤ Scalar.select (Ideal.cmp .ogt x 0) (Ideal.rsqrt (max x 1)) (0 : EReal)
      ∧ Scalar.select (Ideal.cmp .ogt x 0) (Ideal.rsqrt (max x 1)) (0 : EReal) ≠ ⊤ := by
  have hpos : (0 : EReal) < max x 1 := lt_of_lt_of_le zero_lt_one (le_max_right x 1)
  unfold Scalar.select
  split
  · exact rsqrt_nonneg_ne_top hpos
  · exact ⟨le_refl _, EReal.zero_ne_top⟩

end Cert.GcnLaw

end
-- ==== Proof.LibHostUnary.lean ====
/-
  Three host operations read at an index, at the exact extended-real values: the hyperbolic tangent and the
  reciprocal square root act entry by entry, and an ordered "greater than" comparison compares the entries.
-/
import Idealize.ShloMosaic.PureOps.Ideal
import Idealize.ShloMosaic.Lib.ValueIdx

namespace Idealize.ShloMosaic.ValueIdx

variable {s : Shape} {φ : FTy}

/-- The host's hyperbolic tangent at an index. -/
theorem hostTanh_apply (a : FVec Ideal s φ) (i : s.Idx) : Host.tanh a i = Ideal.tanh (a i) := rfl
/-- The host's reciprocal square root at an index. -/
theorem hostRsqrt_apply (a : FVec Ideal s φ) (i : s.Idx) : Host.rsqrt a i = Ideal.rsqrt (a i) := rfl
/-- An ordered "greater than" comparison at an index. -/
theorem cmpf_ogt_apply (a b : FVec Ideal s φ) (i : s.Idx) : cmpf (F := Ideal) .ogt a b i = Ideal.cmp .ogt (a i) (b i) := rfl

end Idealize.ShloMosaic.ValueIdx
-- ==== Proof.Bridge.lean ====
/-
  The two programs compute one function.

  Read at node n and column c, a layer of the kernel program is
      tanh ((Σ over the edges e landing on n of Σ_k (X (s e, k) · d (s e)) · W (k, c)) · d n + b c)
  and a layer of the reference program is
      tanh ((Σ over the edges e landing on n of (Σ_k X (s e, k) · W (k, c)) · (d (s e) · d (t e))) + b c),
  where s e is the node the gather reads for edge e's start, t e the node it reads for e's destination, and d the
  scale 1 / √(max deg 1) where deg > 0, else 0. An edge lands on n exactly when its destination word is n, and then
  t e = n; d is nonnegative and never +∞, so it moves across the sums (the aggregation law). Both programs build the
  edges, the degrees and the scale by the same host operations, and end with the same mean over the root nodes' rows,
  so two equal layers make equal results.
-/
import proofs.«124303_j39805756900005_2_alg».proof.Proof.KernelHost
import proofs.«124303_j39805756900005_2_alg».proof.Proof.RefHost
import proofs.«124303_j39805756900005_2_alg».proof.Proof.LibGraphStages
import proofs.«124303_j39805756900005_2_alg».proof.Proof.LibPlainStage
import proofs.«124303_j39805756900005_2_alg».proof.Proof.LibDense
import proofs.«124303_j39805756900005_2_alg».proof.Proof.LibBroadcastInDim
import proofs.«124303_j39805756900005_2_alg».proof.Proof.GcnLaw
import proofs.«124303_j39805756900005_2_alg».proof.Proof.LibHostUnary
import Idealize.ShloMosaic.Lib.IdealHost

set_option maxRecDepth 16384

noncomputable section

namespace Cert.Bridge

open Idealize.ShloMosaic Idealize.ShloMosaic.ValueIdx Cert.Graph Cert.Law Cert.HostOps Cert.GcnLaw Cert.GcnSpec

/-! ## The kernel program's layer at an entry -/

section KernelSide
open Cert.KernelIdeal Cert.KernelIdeal.Facts₀ Cert.KernelIdeal.HostSide

theorem kernel_layer_apply (ei : IVec S2x262144 32) (X : FVec Ideal S20000x768 .f32) (W : FVec Ideal S768x768 .f32)
    (b : FVec Ideal S768 .f32) (n : Fin 20000) (c : Fin 768) :
    layerV ei X W b (ix2 n c)
      = Ideal.tanh (landed (lands (N := 20000) (colV (dstV ei)))
          (fun e => ∑ k : Fin 768, (X (ix2 (node (N := 20000) (by decide) (colV (wrapV (srcV ei))) e) k)
              * dinvV ei (ix1 (node (N := 20000) (by decide) (colV (wrapV (srcV ei))) e))) * W (ix2 k c)) n
          * dinvV ei (ix1 n) + b (ix1 c)) := by
  have hd : ∀ j : Fin 20000, dcolV ei (ix2 j (0 : Fin 1)) = dinvV ei (ix1 j) := fun j =>
    broadcastInDim_a_a1_apply bcast_S20000_S20000x1_0 (dinvV ei) j 0
  have hb : browV b (ix2 (0 : Fin 1) c) = b (ix1 c) := broadcastInDim_b_1b_apply bcast_S768_S1x768_1 b 0 c
  have hA := gathered_stage (K := 282144) (N := 20000) (C := 768) (by decide) scatter_S20000x768_S282144x1_S282144x768_1_0_0_1
    rfl rfl rfl rfl gather_S20000x768_S282144x1_S282144x768_1_0_n_n_0_1_1768_wf bcast_S_S20000x768 (colV (dstV ei))
    (colV (wrapV (srcV ei))) (scaledDense (N := 20000) (A := 768) (B := 768) X (dcolV ei) (narrowV W)) n c
  unfold layerV
  rw [biasedTanh_apply]
  refine congrArg Ideal.tanh ?_
  refine congrArg₂ (· + ·) (congrArg₂ (· * ·) ?_ (hd n)) hb
  refine (show aggV ei (scaledDense (N := 20000) (A := 768) (B := 768) X (dcolV ei) (narrowV W)) (ix2 n c) = _ from hA).trans ?_
  refine congrArg (fun f => landed (lands (N := 20000) (colV (dstV ei))) f n) (funext fun e => ?_)
  rw [scaledDense_apply]
  refine Finset.sum_congr rfl fun k _ => ?_
  exact congrArg₂ (· * ·) (congrArg₂ (· * ·) rfl (hd _)) rfl

end KernelSide

/-! ## The reference program's layer at an entry -/

section ReferenceSide
open Cert.ReferenceIdeal Cert.ReferenceIdeal.Facts₀ Cert.ReferenceIdeal.HostSide

theorem dl0 (i : S20000x768.Idx) (q : dot_S20000x768_S768x768_S20000x768_1_0_0_1_n_n.contr.Idx) : (dot_S20000x768_S768x768_S20000x768_1_0_0_1_n_n.lhsIdx i q 0).val = (i 0).val := by
  unfold DotDims.lhsIdx
  rw [dif_neg (show ¬(0 : Fin S20000x768.rank) ∈ dot_S20000x768_S768x768_S20000x768_1_0_0_1_n_n.lhsBatch by decide), dif_pos (show (0 : Fin S20000x768.rank) ∈ dot_S20000x768_S768x768_S20000x768_1_0_0_1_n_n.lhsNonContracting by decide)]
  rfl
theorem dl1 (i : S20000x768.Idx) (q : dot_S20000x768_S768x768_S20000x768_1_0_0_1_n_n.contr.Idx) : (dot_S20000x768_S768x768_S20000x768_1_0_0_1_n_n.lhsIdx i q 1).val = (q ⟨0, by decide⟩).val :=
  dot_S20000x768_S768x768_S20000x768_1_0_0_1_n_n.lhsIdx_val_of_single rfl i q
theorem dr0 (i : S20000x768.Idx) (q : dot_S20000x768_S768x768_S20000x768_1_0_0_1_n_n.contr.Idx) : (dot_S20000x768_S768x768_S20000x768_1_0_0_1_n_n.rhsIdx i q 0).val = (q ⟨0, by decide⟩).val :=
  dot_S20000x768_S768x768_S20000x768_1_0_0_1_n_n.rhsIdx_val_of_single rfl i q
theorem dr1 (i : S20000x768.Idx) (q : dot_S20000x768_S768x768_S20000x768_1_0_0_1_n_n.contr.Idx) : (dot_S20000x768_S768x768_S20000x768_1_0_0_1_n_n.rhsIdx i q 1).val = (i 1).val := by
  unfold DotDims.rhsIdx
  rw [dif_neg (show ¬(1 : Fin S768x768.rank) ∈ dot_S20000x768_S768x768_S20000x768_1_0_0_1_n_n.rhsBatch by decide), dif_pos (show (1 : Fin S768x768.rank) ∈ dot_S20000x768_S768x768_S20000x768_1_0_0_1_n_n.rhsNonContracting by decide)]
  rfl

theorem reference_layer_apply (ei : IVec S2x262144 32) (X : FVec Ideal S20000x768 .f32) (W : FVec Ideal S768x768 .f32)
    (b : FVec Ideal S768 .f32) (n : Fin 20000) (c : Fin 768) :
    layerV ei X W b (ix2 n c)
      = Ideal.tanh (landed (lands (N := 20000) (colV (dstV ei)))
          (fun e => (∑ k : Fin 768, X (ix2 (node (N := 20000) (by decide) (colV (wrapV (srcV ei))) e) k) * W (ix2 k c))
            * (dinvV ei (ix1 (node (N := 20000) (by decide) (colV (wrapV (srcV ei))) e))
              * dinvV ei (ix1 (node (N := 20000) (by decide) (colV (wrapV (dstV ei))) e)))) n
          + b (ix1 c)) := by
  unfold layerV
  rw [hostTanh_apply, addf_apply]
  refine congrArg Ideal.tanh ?_
  refine congrArg₂ (· + ·) ?_ (bias_apply (N := 20000) (C := 768) bcast_S768_S1x768_1 bcast_S1x768_S20000x768_0_1 b n c)
  refine (weighted_stage (K := 282144) (N := 20000) (C := 768) (by decide) scatter_S20000x768_S282144x1_S282144x768_1_0_0_1
    rfl rfl rfl rfl gather_S20000x768_S282144x1_S282144x768_1_0_n_n_0_1_1768_wf bcast_S_S20000x768 bcast_S282144_S282144x1_0
    bcast_S282144x1_S282144x768_0_1 (colV (dstV ei)) (colV (wrapV (srcV ei))) (Host.dotGeneral dot_S20000x768_S768x768_S20000x768_1_0_0_1_n_n none X W) (normV ei) n c).trans ?_
  refine congrArg (fun f => landed (lands (N := 20000) (colV (dstV ei))) f n) (funext fun e => ?_)
  refine congrArg₂ (· * ·) (dotGeneral_plain_apply (n := 20000) (K := 768) (h := 768) dot_S20000x768_S768x768_S20000x768_1_0_0_1_n_n none _ rfl rfl dl0 dl1 dr0 dr1 X W _ c) ?_
  exact norm_stage (K := 282144) (N := 20000) (by decide) gather_S20000_S282144x1_S282144_n_0_n_n_0_1_1_wf (dinvV ei)
    (colV (wrapV (srcV ei))) (colV (wrapV (dstV ei))) e

/-- The scale is nonnegative and never +∞. -/
theorem scale_ok (ei : IVec S2x262144 32) (j : Fin 20000) : 0 ≤ dinvV ei (ix1 j) ∧ dinvV ei (ix1 j) ≠ ⊤ := by
  have h := Cert.GcnLaw.scale_nonneg_ne_top (degV ei (ix1 j))
  have e1 : cmpf (F := Ideal) .ogt (degV ei) (broadcastInDim S20000 ![] bcast_S_S20000 (constant S_ .f32 0x00000000#32)) (ix1 j)
      = Ideal.cmp .ogt (degV ei (ix1 j)) 0 := by
    rw [cmpf_ogt_apply, broadcastInDim_scalar_apply, constant_apply, Ideal.ofBits_zero_f32]
  have e2 : Host.rsqrt (maximumf (degV ei) (broadcastInDim S20000 ![] bcast_S_S20000 (constant S_ .f32 0x3F800000#32))) (ix1 j)
      = Ideal.rsqrt (max (degV ei (ix1 j)) 1) := by
    rw [hostRsqrt_apply, maximumf_apply, broadcastInDim_scalar_apply, constant_apply, Ideal.ofBits_one_f32]
  have e3 : broadcastInDim S20000 ![] bcast_S_S20000 (id (constant (F := Ideal) S_ .f32 0x00000000#32)) (ix1 j) = (0 : EReal) := by
    rw [broadcastInDim_scalar_apply]
    exact Ideal.ofBits_zero_f32
  unfold dinvV
  rw [select_apply, e1, e2, e3]
  exact h

end ReferenceSide

/-! ## The two host sides are the same functions -/

theorem starts_eq (ei : IVec ⟨2, ![2, 262144]⟩ 32) : Cert.KernelIdeal.HostSide.colV (Cert.KernelIdeal.HostSide.wrapV (Cert.KernelIdeal.HostSide.srcV ei)) = Cert.ReferenceIdeal.HostSide.colV (Cert.ReferenceIdeal.HostSide.wrapV (Cert.ReferenceIdeal.HostSide.srcV ei)) := rfl
theorem dests_eq (ei : IVec ⟨2, ![2, 262144]⟩ 32) : Cert.KernelIdeal.HostSide.colV (Cert.KernelIdeal.HostSide.dstV ei) = Cert.ReferenceIdeal.HostSide.colV (Cert.ReferenceIdeal.HostSide.dstV ei) := rfl
theorem scale_eq (ei : IVec ⟨2, ![2, 262144]⟩ 32) : Cert.KernelIdeal.HostSide.dinvV ei = Cert.ReferenceIdeal.HostSide.dinvV ei := rfl
theorem tail_eq (roots : IVec ⟨1, ![64]⟩ 32) (X : FVec Ideal ⟨2, ![20000, 768]⟩ .f32) : Cert.KernelIdeal.HostSide.tailV roots X = Cert.ReferenceIdeal.HostSide.tailV roots X := rfl

/-! ## A layer, and the results -/

theorem layer_eq (ei : IVec ⟨2, ![2, 262144]⟩ 32) (X : FVec Ideal ⟨2, ![20000, 768]⟩ .f32) (W : FVec Ideal ⟨2, ![768, 768]⟩ .f32) (b : FVec Ideal ⟨1, ![768]⟩ .f32) : Cert.KernelIdeal.HostSide.layerV ei X W b = Cert.ReferenceIdeal.HostSide.layerV ei X W b := by
  funext i
  obtain ⟨n, c, rfl⟩ : ∃ (n : Fin 20000) (c : Fin 768), i = ix2 n c := ⟨i 0, i 1, eq_ix2 i⟩
  rw [kernel_layer_apply, reference_layer_apply, starts_eq, dests_eq, scale_eq]
  refine congrArg Ideal.tanh (congrArg (· + b (ix1 c)) ?_)
  exact layer_law (lands (N := 20000) (Cert.ReferenceIdeal.HostSide.colV (Cert.ReferenceIdeal.HostSide.dstV ei)))
    (node (N := 20000) (by decide) (Cert.ReferenceIdeal.HostSide.colV (Cert.ReferenceIdeal.HostSide.wrapV (Cert.ReferenceIdeal.HostSide.srcV ei))))
    (node (N := 20000) (by decide) (Cert.ReferenceIdeal.HostSide.colV (Cert.ReferenceIdeal.HostSide.wrapV (Cert.ReferenceIdeal.HostSide.dstV ei))))
    (fun j => Cert.ReferenceIdeal.HostSide.dinvV ei (ix1 j)) (scale_ok ei) (fun j k => X (ix2 j k)) (fun k => W (ix2 k c)) n
    (fun e h => wrapped_dest (K := 282144) (N := 20000) (by decide) Cert.ReferenceIdeal.Facts₀.bcast_S_S282144
      Cert.ReferenceIdeal.Facts₀.bcast_S282144_S282144x1_0 (Cert.ReferenceIdeal.HostSide.dstV ei) 20000#32 n e h)

theorem value_eq (x : FVec Ideal ⟨2, ![20000, 768]⟩ .f32) (ei : IVec ⟨2, ![2, 262144]⟩ 32) (roots : IVec ⟨1, ![64]⟩ 32) (W1 : FVec Ideal ⟨2, ![768, 768]⟩ .f32) (b1 : FVec Ideal ⟨1, ![768]⟩ .f32)
    (W2 : FVec Ideal ⟨2, ![768, 768]⟩ .f32) (b2 : FVec Ideal ⟨1, ![768]⟩ .f32) :
    Cert.KernelIdeal.HostSide.valueV x ei roots W1 b1 W2 b2 = Cert.ReferenceIdeal.HostSide.valueV x ei roots W1 b1 W2 b2 := by
  unfold Cert.KernelIdeal.HostSide.valueV Cert.ReferenceIdeal.HostSide.valueV
  rw [layer_eq ei x W1 b1, layer_eq ei _ W2 b2]
  exact tail_eq roots _

end Cert.Bridge

end
-- ==== Proof.lean ====
/-
  The certificate of a two-layer graph convolution against its reference, over the extended reals.

  Both programs add a loop at every node, count each node's degree and take the scale d = 1 / √(max deg 1) where the
  degree is positive. A reference layer multiplies the features into the weights, gathers the products' rows at the
  edges' starts, weighs each by d (start) · d (destination), sums them into the edges' destinations, adds the bias and
  takes the hyperbolic tangent. A kernel layer scales the features' rows by d before the product (a launch), gathers
  and sums without weights (host operations), and scales the sums by d, adds the bias and takes the hyperbolic tangent
  (a launch). Because d is nonnegative and never +∞ it moves across the sums of extended reals, and an edge that lands
  on a node has that node as its destination, so the two layers are one function; the programs end with the same mean
  over the root nodes' rows.

  The frames of the two kernel programs are the generated ones. The reference's frame is its run with the result
  dropped. The idealization rewrote nothing, so it preserves the program trivially. For the algebraic claim the
  kernel program's run is read with its result named (KernelRun), the result traced back through the launches and
  the host operations to the arguments (KernelChain over Launch0 … Launch3), and compared with the reference's
  composed term (RefHost, Bridge).
-/
import proofs.«124303_j39805756900005_2_alg».proof.Defs
import proofs.«124303_j39805756900005_2_alg».proof.Proof.Gen.Kernel
import proofs.«124303_j39805756900005_2_alg».proof.Proof.Gen.Kernel.Frame
import proofs.«124303_j39805756900005_2_alg».proof.Proof.Gen.KernelIdeal
import proofs.«124303_j39805756900005_2_alg».proof.Proof.Gen.KernelIdeal.Frame
import proofs.«124303_j39805756900005_2_alg».proof.Proof.Gen.ReferenceIdeal
import proofs.«124303_j39805756900005_2_alg».proof.Proof.Gen.Pre_finite_inputs
import proofs.«124303_j39805756900005_2_alg».proof.Proof.RefRunP
import proofs.«124303_j39805756900005_2_alg».proof.Proof.KernelRun
import proofs.«124303_j39805756900005_2_alg».proof.Proof.KernelChain
import proofs.«124303_j39805756900005_2_alg».proof.Proof.RefHost
import proofs.«124303_j39805756900005_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.RunP.run (F := Ideal) m ρ)

/-- From memories agreeing on the arguments both idealized programs end, the kernel program at two layers and the root
    mean of its arguments, the reference at its own composition of them, which is the same function. -/
theorem algebraic : Cert.algebraic_KernelIdeal_ReferenceIdeal := by
  intro m ρ m' ρ' _ hagree
  refine ⟨fun c => Cert.KernelIdeal.HostSide.valueV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.RunP.run (F := Ideal) m' ρ')
    obtain ⟨a0, a1, a2, a3, a4, a5, a6⟩ := hagree c
    rw [Cert.ReferenceIdeal.HostSide.res_eq, a0, a1, a2, a3, a4, a5, a6]
    exact (Cert.Bridge.value_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
